-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S1600000x128 : Shape := ⟨2, ![1600000, 128]⟩
abbrev S1x128 : Shape := ⟨2, ![1, 128]⟩
abbrev S5000x128 : Shape := ⟨2, ![5000, 128]⟩
abbrev S5000x2 : Shape := ⟨2, ![5000, 2]⟩
abbrev S5000x1 : Shape := ⟨2, ![5000, 1]⟩
abbrev S160x128 : Shape := ⟨2, ![160, 128]⟩
abbrev S8x128 : Shape := ⟨2, ![8, 128]⟩
abbrev S1x1 : Shape := ⟨2, ![1, 1]⟩

abbrev nBuf : Space → Nat
  | .hbm => 125
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x1, .f32⟩
  | .hbm, ⟨39, _⟩ => ⟨S100000x2, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S100000x1, .f32⟩
  | .hbm, ⟨102, _⟩ => ⟨S1x128, .f32⟩
  | .hbm, ⟨103, _⟩ => ⟨S160x128, .f32⟩
  | .hbm, ⟨104, _⟩ => ⟨S_, .f32⟩
  | .hbm, ⟨105, _⟩ => ⟨S128, .f32⟩
  | .hbm, ⟨106, _⟩ => ⟨S1x128, .f32⟩
  | .hbm, ⟨107, _⟩ => ⟨S_, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S_, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S_, .f32⟩
  | .hbm, ⟨120, _⟩ => ⟨S1x128, .f32⟩
  | .hbm, ⟨121, _⟩ => ⟨S1x128, .f32⟩
  | .hbm, ⟨122, _⟩ => ⟨S1x1, .f32⟩
  | .hbm, ⟨123, _⟩ => ⟨S1x1, .f32⟩
  | .hbm, ⟨124, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S5000x2, .f32⟩
  | .local _ .vmem, ⟨3, _⟩ => ⟨S5000x2, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x2, .f32⟩
  | .local _ .vmem, ⟨11, _⟩ => ⟨S5000x2, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x2, .f32⟩
  | .local _ .vmem, ⟨19, _⟩ => ⟨S5000x2, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S1x128, .f32⟩
  | .local _ .vmem, ⟨30, _⟩ => ⟨S8x128, .f32⟩
  | .local _ .vmem, ⟨31, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_v8 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_c_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_9 : Ref sig .tc := ⟨.hbm, 73, rfl⟩
abbrev main_v41 : Ref sig .tc := ⟨.hbm, 74, rfl⟩
abbrev main_v42 : Ref sig .tc := ⟨.hbm, 75, rfl⟩
abbrev main_c_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_11 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_12 : Ref sig .tc := ⟨.hbm, 88, rfl⟩
abbrev main_v53 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_14 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_15 : Ref sig .tc := ⟨.hbm, 104, rfl⟩
abbrev main_v66 : Ref sig .tc := ⟨.hbm, 105, rfl⟩
abbrev main_v67 : Ref sig .tc := ⟨.hbm, 106, rfl⟩
abbrev main_cst_16 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call2_cst : Ref sig .tc := ⟨.hbm, 113, rfl⟩
abbrev main_call2_v0 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call3_cst : Ref sig .tc := ⟨.hbm, 119, rfl⟩
abbrev main_call3_v0 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S5000x2_S5000x1_0_1 : ∀ a, (![0, 1] : Fin 2 → Nat) a + S5000x1.size a ≤ S5000x2.size a
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000_S100000x1 : S100000.ShapeCasts S100000x1
  inb_S5000x1_S5000x1_0_0 : ∀ a, (![0, 0] : Fin 2 → Nat) a + S5000x1.size a ≤ S5000x1.size a
  reduces_S5000x128_S128 : S5000x128.Reduces [0] S128
  inb_S8x128_S8x128_0_0 : ∀ a, (![0, 0] : Fin 2 → Nat) a + S8x128.size a ≤ S8x128.size a
  h_S8x128 : 0 < S8x128.numel
  inb_S8x128_S1x128_0_0 : ∀ a, (![0, 0] : Fin 2 → Nat) a + S1x128.size a ≤ S8x128.size a
  reducesTo_S160x128_S128_d0 : S160x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1_S1x1_1 : S1.BroadcastsInDim S1x1 (![1] : Fin 1 → Fin S1x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1x128_S128x128_S1x128_1_0_0_1_n_n_wf : DotDims.WF S1x128 S128x128 S1x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S100000x2.size a
  hwx2_1 : ∀ i : grid2.Coords, EltTy.bits .f32 = 32 ∨ (Rect.block (s := S100000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8x128.size a ≤ S160x128.size a
  hwx3_4 : ∀ i : grid3.Coords, EltTy.bits .f32 = 32 ∨ (Rect.block (s := S160x128) S8x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S8x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x1, .f32⟩
  | 16 => ⟨S1, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S100000x128, .f32⟩
  | 54 => ⟨S100000x1, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x1, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x128, .f32⟩
  | 80 => ⟨S100000x1, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x1, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000x128, .f32⟩
  | 106 => ⟨S100000x1, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x1, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S_, .f32⟩
  | _ => ⟨S100000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S100000x128, .f32⟩
  | 4 => ⟨S100000x1, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x1, .f32⟩
  | 32 => ⟨S1x1, .f32⟩
  | 33 => ⟨S1x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v7 : Ref sig .tc := ⟨.hbm, 30, rfl⟩
abbrev main_v8 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call2_cst : Ref sig .tc := ⟨.hbm, 60, rfl⟩
abbrev main_call2_v0 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_v35 : Ref sig .tc := ⟨.hbm, 67, rfl⟩
abbrev main_v36 : Ref sig .tc := ⟨.hbm, 68, rfl⟩
abbrev main_c_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call3_cst : Ref sig .tc := ⟨.hbm, 86, rfl⟩
abbrev main_call3_v0 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_9 : Ref sig .tc := ⟨.hbm, 92, rfl⟩
abbrev main_v56 : Ref sig .tc := ⟨.hbm, 93, rfl⟩
abbrev main_v57 : Ref sig .tc := ⟨.hbm, 94, rfl⟩
abbrev main_c_10 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call4_cst : Ref sig .tc := ⟨.hbm, 112, rfl⟩
abbrev main_call4_v0 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_12 : Ref sig .tc := ⟨.hbm, 118, rfl⟩
abbrev main_v77 : Ref sig .tc := ⟨.hbm, 119, rfl⟩
abbrev main_v78 : Ref sig .tc := ⟨.hbm, 120, rfl⟩
abbrev main_c_13 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_14 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_call5_cst : Ref sig .tc := ⟨.hbm, 138, rfl⟩
abbrev main_call5_v0 : Ref sig .tc := ⟨.hbm, 139, rfl⟩
abbrev main_v94 : Ref sig .tc := ⟨.hbm, 140, rfl⟩
abbrev main_cst_15 : Ref sig .tc := ⟨.hbm, 141, rfl⟩
abbrev main_v95 : Ref sig .tc := ⟨.hbm, 142, rfl⟩
abbrev main_v96 : Ref sig .tc := ⟨.hbm, 143, rfl⟩
abbrev main_cst_16 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call6_cst : Ref sig .tc := ⟨.hbm, 150, rfl⟩
abbrev main_call6_v0 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call7_cst : Ref sig .tc := ⟨.hbm, 156, rfl⟩
abbrev main_call7_v0 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  bcast_S1_S1x1_1 : S1.BroadcastsInDim S1x1 (![1] : Fin 1 → Fin S1x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []
  dot_S1x128_S128x1_S1x1_1_0_0_1_n_n_wf : DotDims.WF S1x128 S128x1 S1x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.KernelRun.lean ====
/-
  The idealized kernel's run with its result named.

  The program is a line of host operations broken by four pipelined kernel launches. Running it from any memory with
  zero counters, every weakly fair execution terminates without a fault; the final memory holds, in every buffer that is
  not a kernel's private staging space, the contents obtained by folding the host operations and the four launches'
  write-backs over the launch memory (the valuation `W17`). Read at the result buffer this names the program's result;
  read at an argument buffer it is the argument as launched, since nothing writes an argument.
-/
import proofs.«122499_j17145509445914_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the fold's value
    there and every argument array ends as launched. The segments, their thread states and the launch are those of the
    frame; only the reading of the final memory adds the result buffer. -/
theorem run_result : θ_run defs (onTc (τ := τ) (main (F := F))) ⟨m, fun _ => 0, ρ⟩ (fun r => ∀ c : Dev nD,
      r.2.mem ((c.tc : Thread nD τ).loc main_v80) = W17 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v80 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c)⟩)

end Cert.KernelIdeal.RunValue

end
-- ==== Proof.LibColumnBroadcast.lean ====
/-
  A column broadcast along the rows: an [a, 1] array broadcast to [a, b] reads, at (i, j), the operand's entry (i, 0).
-/
import Idealize.ShloMosaic.Lib.Pipeline.Value
import Idealize.ShloMosaic.Lib.ValueIdx

namespace Cert.Lib.ColumnBroadcast

open Idealize.ShloMosaic Idealize.ShloMosaic.ValueIdx

variable {α : Type}

/-- An [a, 1] column broadcast to [a, b] reads, at (i, j), the operand at (i, 0): the row coordinate is kept (also when
    a = 1, where the only row is row 0) and the unit axis is read at its one position. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.ColumnBroadcast
-- ==== Proof.BodyValue.lean ====
/-
  The transform kernels' arithmetic, entry by entry, at the extended reals.

  One launch of the scaled transform works on a block of 5000 rows: it multiplies the block [5000, 128] by the weights
  [128, 128] (both rounded to bf16 on the way in, which at the extended reals changes nothing), scales row r by the first
  factor column, adds the bias row, clips at zero and scales row r by the second factor column. The pooling transform
  does the same without the second scaling and then sums each column over the block's 5000 rows. At the extended reals
  the matrix product into a zero accumulator is the plain sum over the contracted coordinate, a column broadcast reads
  its row's entry, a row broadcast its column's entry, and a sum over one axis is the sum of that axis's entries.
-/
import proofs.«122499_j17145509445914_2_alg».proof.Proof.Gen.KernelIdeal.Skeleton
import proofs.«122499_j17145509445914_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

theorem lhs_row (i : S5000x128.Idx) (κ : dot_S5000x128_S128x128_S5000x128_1_0_0_1_n_n.contr.Idx) : (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_contr (i : S5000x128.Idx) (κ : dot_S5000x128_S128x128_S5000x128_1_0_0_1_n_n.contr.Idx) : (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs_contr (i : S5000x128.Idx) (κ : dot_S5000x128_S128x128_S5000x128_1_0_0_1_n_n.contr.Idx) : (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs_col (i : S5000x128.Idx) (κ : dot_S5000x128_S128x128_S5000x128_1_0_0_1_n_n.contr.Idx) : (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block's matrix product into the zero accumulator, entry (r, q): the sum over the contracted coordinate. -/
theorem matmul_block_apply (x : FVec Ideal S5000x128 .bf16) (w : FVec Ideal S128x128 .bf16) (r : Fin 5000) (q : Fin 128) :
    matmul dot_S5000x128_S128x128_S5000x128_1_0_0_1_n_n none x w (constant S5000x128 .f32 0x00000000#32) (ix2 r q) = ∑ k : Fin 128, x (ix2 r k) * w (ix2 k q) := by
  refine (Ideal.matmul_constant_zero_apply dot_S5000x128_S128x128_S5000x128_1_0_0_1_n_n none x w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The transform up to the clip at zero, on one block, as the kernels spell it. -/
def clipped (v0 : Vec Ideal S5000x128 .f32) (v3 : Vec Ideal S128x128 .f32) (v6 : Vec Ideal S5000x1 .f32)
    (v12 : Vec Ideal S1x128 .f32) : FVec Ideal S5000x128 .f32 :=
  maximumf (addf (mulf (matmul dot_S5000x128_S128x128_S5000x128_1_0_0_1_n_n none
        (truncf .bf16 (shapeCast S5000x128 v0 shapeCasts_S5000x128_S5000x128) bitsLt_bf16_f32) (truncf .bf16 v3 bitsLt_bf16_f32)
        (constant S5000x128 .f32 0x00000000#32))
      (broadcastTo S5000x128 (shapeCast S5000x1 v6 shapeCasts_S5000x1_S5000x1) broadcasts_S5000x1_S5000x128))
    (broadcastTo S5000x128 (shapeCast S1x128 v12 shapeCasts_S1x128_S1x128) broadcasts_S1x128_S5000x128))
    (broadcast S5000x128 (Scalar.ofBits .f32 0x00000000#32))

/-- Entry (r, q) of the clipped transform of a block. -/
theorem clipped_apply (v0 : Vec Ideal S5000x128 .f32) (v3 : Vec Ideal S128x128 .f32) (v6 : Vec Ideal S5000x1 .f32)
    (v12 : Vec Ideal S1x128 .f32) (r : Fin 5000) (q : Fin 128) :
    clipped v0 v3 v6 v12 (ix2 r q)
      = max ((∑ k : Fin 128, v0 (ix2 r k) * v3 (ix2 k q)) * v6 (ix2 r (0 : Fin 1)) + v12 (ix2 (0 : Fin 1) q))
          (Ideal.ofBits .f32 0x00000000#32) := by
  unfold clipped
  rw [maximumf_apply, addf_apply, mulf_apply, matmul_block_apply, shapeCast_self, shapeCast_self, shapeCast_self,
    Cert.Lib.ColumnBroadcast.broadcastTo_a1_ab_apply, broadcastTo_1b_ab_apply]
  rfl

/-- The three scaled transforms' stored block is the clipped transform scaled by the second factor column. -/
theorem k0_eq (v0 : Vec Ideal S5000x128 .f32) (v3 : Vec Ideal S128x128 .f32) (v6 v8 : Vec Ideal S5000x1 .f32)
    (v12 : Vec Ideal S1x128 .f32) :
    k0_pay1 v0 v3 v6 v8 v12 = mulf (clipped v0 v3 v6 v12)
      (broadcastTo S5000x128 (shapeCast S5000x1 v8 shapeCasts_S5000x1_S5000x1) broadcasts_S5000x1_S5000x128) := rfl
theorem k1_eq (v0 : Vec Ideal S5000x128 .f32) (v3 : Vec Ideal S128x128 .f32) (v6 v8 : Vec Ideal S5000x1 .f32)
    (v12 : Vec Ideal S1x128 .f32) :
    k1_pay1 v0 v3 v6 v8 v12 = mulf (clipped v0 v3 v6 v12)
      (broadcastTo S5000x128 (shapeCast S5000x1 v8 shapeCasts_S5000x1_S5000x1) broadcasts_S5000x1_S5000x128) := rfl
theorem k2_eq (v0 : Vec Ideal S5000x128 .f32) (v3 : Vec Ideal S128x128 .f32) (v6 v8 : Vec Ideal S5000x1 .f32)
    (v12 : Vec Ideal S1x128 .f32) :
    k2_pay1 v0 v3 v6 v8 v12 = mulf (clipped v0 v3 v6 v12)
      (broadcastTo S5000x128 (shapeCast S5000x1 v8 shapeCasts_S5000x1_S5000x1) broadcasts_S5000x1_S5000x128) := rfl

/-- Entry (r, q) of a scaled transform's stored block. -/
theorem scaled_apply (v0 : Vec Ideal S5000x128 .f32) (v3 : Vec Ideal S128x128 .f32) (v6 v8 : Vec Ideal S5000x1 .f32)
    (v12 : Vec Ideal S1x128 .f32) (r : Fin 5000) (q : Fin 128) :
    mulf (clipped v0 v3 v6 v12)
        (broadcastTo S5000x128 (shapeCast S5000x1 v8 shapeCasts_S5000x1_S5000x1) broadcasts_S5000x1_S5000x128) (ix2 r q)
      = max ((∑ k : Fin 128, v0 (ix2 r k) * v3 (ix2 k q)) * v6 (ix2 r (0 : Fin 1)) + v12 (ix2 (0 : Fin 1) q))
          (Ideal.ofBits .f32 0x00000000#32) * v8 (ix2 r (0 : Fin 1)) := by
  rw [mulf_apply, clipped_apply, shapeCast_self, Cert.Lib.ColumnBroadcast.broadcastTo_a1_ab_apply]

/-- The pooling transform's stored row is the column sums of the clipped transform, as a [1, 128] row. -/
theorem k3_eq (v0 : Vec Ideal S5000x128 .f32) (v3 : Vec Ideal S128x128 .f32) (v6 : Vec Ideal S5000x1 .f32)
    (v10 : Vec Ideal S1x128 .f32) :
    k3_pay1 v0 v3 v6 v10 = shapeCast S1x128
      (multiReduction .add [0] S128 (clipped v0 v3 v6 v10) 0x00000000#32 reduces_S5000x128_S128 (.inl rfl) rfl)
      shapeCasts_S128_S1x128 := rfl

/-- Entry (0, q) of the pooling transform's stored row: the sum over the block's rows. -/
theorem pooled_apply (v0 : Vec Ideal S5000x128 .f32) (v3 : Vec Ideal S128x128 .f32) (v6 : Vec Ideal S5000x1 .f32)
    (v10 : Vec Ideal S1x128 .f32) (u : Fin 1) (q : Fin 128) :
    k3_pay1 v0 v3 v6 v10 (ix2 u q)
      = ∑ r : Fin 5000, max ((∑ k : Fin 128, v0 (ix2 r k) * v3 (ix2 k q)) * v6 (ix2 r (0 : Fin 1)) + v10 (ix2 (0 : Fin 1) q))
          (Ideal.ofBits .f32 0x00000000#32) := by
  rw [k3_eq]
  refine (shapeCast_a_1a_apply _ shapeCasts_S128_S1x128 u q).trans ?_
  refine (Ideal.multiReduction_add_single (clipped v0 v3 v6 v10) 0x00000000#32 reduces_S5000x128_S128 (.inl rfl) rfl (ix1 q)).trans ?_
  show (∑ r : Fin 5000, _) = _
  refine Finset.sum_congr rfl fun r _ => ?_
  refine (congrArg (clipped v0 v3 v6 v10) (funext fun a => Fin.ext (by
    match a with | ⟨0, _⟩ => rfl | ⟨1, _⟩ => rfl))).trans (clipped_apply v0 v3 v6 v10 r q)

/-- The pooling transform's zero fill. -/
theorem k3_zero (y : S8x128.Idx) : k3_pay2 (F := Ideal) y = Ideal.ofBits .f32 0x00000000#32 := rfl

end Cert.KernelIdeal.BodyValue

end
-- ==== Proof.LibBlockSum.lean ====
/-
  A sum taken block by block is the sum over the whole range.

  Cut `0 … m·n − 1` into `m` consecutive blocks of `n`: term `p` of block `t` is number `n·t + p`, every number below
  `m·n` is met exactly once (division with remainder), so adding each block's sum over the blocks is the whole sum —
  in any commutative monoid, since only the order and grouping of the terms change.
-/
import Mathlib.Algebra.BigOperators.Fin
import Mathlib.Logic.Equiv.Fin.Basic

namespace BlockSum

/-- `∑ t < m, ∑ p < n, g (n·t + p) = ∑ r < m·n, g r`. -/
theorem sum_blocks {M : Type*} [AddCommMonoid M] (m n : ℕ) (g : ℕ → M) :
    ∑ t ∈ Finset.range m, ∑ p : Fin n, g (n * t + p.val) = ∑ r : Fin (m * n), g r.val := by
  rw [Finset.sum_range (fun t => ∑ p : Fin n, g (n * t + p.val)),
    ← Equiv.sum_comp finProdFinEquiv (fun r : Fin (m * n) => g r.val), Fintype.sum_prod_type]
  refine Finset.sum_congr rfl fun a _ => Finset.sum_congr rfl fun b _ => ?_
  rw [finProdFinEquiv_apply_val]
  exact congrArg g (Nat.add_comm _ _)

end BlockSum
-- ==== Proof.Spec.lean ====
/-
  The graph-convolution network as plain index-by-index functions over the extended reals.

  One layer maps a node-feature matrix `agg` (already summed over each node's in-edges) to
  `relu ((agg · W)[p, q] · sIn p + b q)`: a matrix product with the weights, every row scaled by the node's
  in-degree factor, the bias added along the columns, negatives clipped at zero (`denseAt`). The layers that feed another
  aggregation scale row `p` once more by the node's out-degree factor (`layerScaled`). The last layer is followed by a
  sum over all 100000 nodes; taken in 20 consecutive blocks of 5000 nodes, each block's column sums stored in the first
  row of an otherwise zero group of 8 rows (`pooledBlocks`), the 160 rows add up to the same column sums, because
  addition of extended reals is commutative and associative and the extra rows are zero (`sum_pooledBlocks`).
-/
import Idealize.ShloMosaic.PureOps.Ideal
import Idealize.ShloMosaic.PureOps.Ideal.Laws
import Idealize.ShloMosaic.Lib.ValueIdx
import proofs.«122499_j17145509445914_2_alg».proof.Proof.LibBlockSum

noncomputable section

open scoped BigOperators

namespace Cert.GCN

open Idealize.ShloMosaic Idealize.ShloMosaic.ValueIdx

/-- Entry (p, q) of one dense layer: `relu ((agg · W)[p, q] · sIn p + b q)`, the clip being a maximum with the zero word's
    value. -/
def denseAt (agg : (⟨2, ![100000, 128]⟩ : Shape).Idx → EReal) (W : (⟨2, ![128, 128]⟩ : Shape).Idx → EReal)
    (sIn : Fin 100000 → EReal) (b : Fin 128 → EReal) (p : Fin 100000) (q : Fin 128) : EReal :=
  max ((∑ k : Fin 128, agg (ix2 p k) * W (ix2 k q)) * sIn p + b q) (Ideal.ofBits .f32 0x00000000#32)

/-- The dense layer as a [100000, 128] array. -/
def dense (agg : (⟨2, ![100000, 128]⟩ : Shape).Idx → EReal) (W : (⟨2, ![128, 128]⟩ : Shape).Idx → EReal)
    (sIn : Fin 100000 → EReal) (b : Fin 128 → EReal) : (⟨2, ![100000, 128]⟩ : Shape).Idx → EReal :=
  fun y => denseAt agg W sIn b (y 0) (y 1)

/-- The dense layer with row p scaled by `sOut p`, as a [100000, 128] array. -/
def layerScaled (agg : (⟨2, ![100000, 128]⟩ : Shape).Idx → EReal) (W : (⟨2, ![128, 128]⟩ : Shape).Idx → EReal)
    (sIn sOut : Fin 100000 → EReal) (b : Fin 128 → EReal) : (⟨2, ![100000, 128]⟩ : Shape).Idx → EReal :=
  fun y => denseAt agg W sIn b (y 0) (y 1) * sOut (y 0)

theorem dense_ix2 (agg W sIn b) (p : Fin 100000) (q : Fin 128) : dense agg W sIn b (ix2 p q) = denseAt agg W sIn b p q := rfl
theorem layerScaled_ix2 (agg W sIn sOut b) (p : Fin 100000) (q : Fin 128) :
    layerScaled agg W sIn sOut b (ix2 p q) = denseAt agg W sIn b p q * sOut p := rfl

/-- Row k, column q of the blockwise column sums: row 8·t holds the sum over the 5000 nodes of block t, the other seven
    rows of each group are the zero word's value. -/
def pooledAt (agg : (⟨2, ![100000, 128]⟩ : Shape).Idx → EReal) (W : (⟨2, ![128, 128]⟩ : Shape).Idx → EReal)
    (sIn : Fin 100000 → EReal) (b : Fin 128 → EReal) (k : Fin 160) (q : Fin 128) : EReal :=
  if k.val % 8 = 0 then
    ∑ r : Fin 5000, denseAt agg W sIn b ⟨5000 * (k.val / 8) + r.val, by have := k.isLt; have := r.isLt; omega⟩ q
  else Ideal.ofBits .f32 0x00000000#32

/-- The blockwise column sums as a [160, 128] array. -/
def pooledBlocks (agg : (⟨2, ![100000, 128]⟩ : Shape).Idx → EReal) (W : (⟨2, ![128, 128]⟩ : Shape).Idx → EReal)
    (sIn : Fin 100000 → EReal) (b : Fin 128 → EReal) : (⟨2, ![160, 128]⟩ : Shape).Idx → EReal :=
  fun y => pooledAt agg W sIn b (y 0) (y 1)

theorem pooledBlocks_ix2 (agg W sIn b) (k : Fin 160) (q : Fin 128) :
    pooledBlocks agg W sIn b (ix2 k q) = pooledAt agg W sIn b k q := rfl

/-- Adding the 160 rows of the blockwise sums gives the sum over all nodes: each group of 8 rows contributes its first
    row (the other seven are zero), and 20 consecutive blocks of 5000 exhaust the 100000 nodes. -/
theorem sum_pooledBlocks (agg : (⟨2, ![100000, 128]⟩ : Shape).Idx → EReal) (W : (⟨2, ![128, 128]⟩ : Shape).Idx → EReal)
    (sIn : Fin 100000 → EReal) (b : Fin 128 → EReal) (q : Fin 128) :
    ∑ k : Fin 160, pooledAt agg W sIn b k q = ∑ p : Fin 100000, denseAt agg W sIn b p q := by
  -- both sums as sums over naturals of functions extended by zero
  let d : ℕ → EReal := fun n => if h : n < 100000 then denseAt agg W sIn b ⟨n, h⟩ q else 0
  let g : ℕ → EReal := fun n => if n % 8 = 0 then ∑ r : Fin 5000, d (5000 * (n / 8) + r.val) else 0
  have hL : ∀ k : Fin 160, pooledAt agg W sIn b k q = g k.val := by
    intro k
    unfold pooledAt
    show _ = if k.val % 8 = 0 then ∑ r : Fin 5000, d (5000 * (k.val / 8) + r.val) else 0
    split
    · refine Finset.sum_congr rfl fun r _ => ?_
      have hlt : 5000 * (k.val / 8) + r.val < 100000 := by have := k.isLt; have := r.isLt; omega
      show _ = if h : 5000 * (k.val / 8) + r.val < 100000 then _ else 0
      rw [dif_pos hlt]
    · exact Ideal.ofBits_zero_f32
  have hR : ∀ p : Fin 100000, denseAt agg W sIn b p q = d p.val := by
    intro p
    show _ = if h : p.val < 100000 then _ else 0
    rw [dif_pos p.isLt]
  rw [Finset.sum_congr rfl fun k _ => hL k, Finset.sum_congr rfl fun p _ => hR p]
  have h160 : (∑ k : Fin 160, g k.val) = ∑ k : Fin (20 * 8), g k.val := rfl
  have hN : (∑ p : Fin 100000, d p.val) = ∑ p : Fin (20 * 5000), d p.val := rfl
  rw [h160, hN, ← BlockSum.sum_blocks 20 8 g, ← BlockSum.sum_blocks 20 5000 d]
  refine Finset.sum_congr rfl fun t _ => ?_
  rw [Fin.sum_univ_eight]
  have e0 : g (8 * t + (0 : Fin 8).val) = ∑ r : Fin 5000, d (5000 * t + r.val) := by
    show (if (8 * t + 0) % 8 = 0 then ∑ r : Fin 5000, d (5000 * ((8 * t + 0) / 8) + r.val) else 0) = _
    rw [if_pos (by omega), show (8 * t + 0) / 8 = t by omega]
  have ez : ∀ s : Fin 8, s.val ≠ 0 → g (8 * t + s.val) = 0 := by
    intro s hs
    show (if (8 * t + s.val) % 8 = 0 then _ else 0) = 0
    rw [if_neg (by have := s.isLt; omega)]
  rw [e0, ez 1 (by decide), ez 2 (by decide), ez 3 (by decide), ez 4 (by decide), ez 5 (by decide), ez 6 (by decide),
    ez 7 (by decide)]
  simp only [add_zero]

end Cert.GCN

end
-- ==== Proof.Region0.lean ====
/-
  What launch 0 of the scaled transform leaves in its output array.

  The launch walks 20 grid points; point t stages rows 5000·t … 5000·t + 4999 of the aggregated features and of the
  factor table, the whole weight matrix and the bias row, and writes back the same rows of the output. Entry (r, q) of the
  block it writes is the dense layer's entry at node 5000·t + r scaled by that node's second factor, so each written
  block is the restriction of one whole-array function, `GCN.layerScaled` of the arrays the launch found; the 20 blocks
  cover the array (row i lies in block i / 5000), hence the array ends as that function.
-/
import proofs.«122499_j17145509445914_2_alg».proof.Proof.Gen.KernelIdeal.Frame
import proofs.«122499_j17145509445914_2_alg».proof.Proof.BodyValue
import proofs.«122499_j17145509445914_2_alg».proof.Proof.Spec
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's load of the factor table's first column reads (r, 0). -/
theorem ld_col0 (x1 : Vec Ideal S5000x2 .f32) (r : Fin 5000) (u : Fin 1) : View.ld x1 r0_2 (ix2 r u) = x1 (ix2 r (0 : Fin 2)) :=
  congrArg x1 (funext fun a => Fin.ext (by
    match a with
    | ⟨0, _⟩ => show 0 + 1 * r.val = r.val; omega
    | ⟨1, _⟩ => show 0 + 1 * u.val = 0; have := u.isLt; omega))

/-- The body's load of the factor table's second column reads (r, 1). -/
theorem ld_col1 (x1 : Vec Ideal S5000x2 .f32) (r : Fin 5000) (u : Fin 1) : View.ld x1 r0_3 (ix2 r u) = x1 (ix2 r (1 : Fin 2)) :=
  congrArg x1 (funext fun a => Fin.ext (by
    match a with
    | ⟨0, _⟩ => show 0 + 1 * r.val = r.val; omega
    | ⟨1, _⟩ => show 1 + 1 * u.val = 1; have := u.isLt; omega))

/-- Entry (r, q) of the block the body leaves, from the staged blocks. -/
theorem block_apply (x0 : Vec Ideal S5000x128 .f32) (x1 : Vec Ideal S5000x2 .f32) (x2 : Vec Ideal S128x128 .f32)
    (x3 : Vec Ideal S1x128 .f32) (r : Fin 5000) (q : Fin 128) :
    out0_4 x0 x1 x2 x3 (ix2 r q)
      = max ((∑ k : Fin 128, x0 (ix2 r k) * x2 (ix2 k q)) * x1 (ix2 r (0 : Fin 2)) + x3 (ix2 (0 : Fin 1) q))
          (Ideal.ofBits .f32 0x00000000#32) * x1 (ix2 r (1 : Fin 2)) := by
  unfold out0_4
  rw [View.canon_unit_zero hz]
  simp only [View.ld_unit_zero (S := S5000x128) hz, View.ld_unit_zero (S := S128x128) hz, View.ld_unit_zero (S := S1x128) hz]
  rw [BodyValue.k0_eq]
  refine (BodyValue.scaled_apply _ _ _ _ _ r q).trans ?_
  rw [ld_col0, ld_col1]

/-- The array the launch leaves: the scaled dense layer of the arrays it found. -/
def G (c : Dev nD) : S100000x128.Idx → Elt Ideal .f32 :=
  GCN.layerScaled (V c main_v26) (V c main_arg3) (fun p => V c main_v13 (ix2 p (0 : Fin 2))) (fun p => V c main_v13 (ix2 p (1 : Fin 2)))
    (fun q => V c main_v27 (ix2 (0 : Fin 1) q))

/-- The windows' block indices over the grid: the row-blocked windows move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 20 := lt_of_lt_of_eq t.isLt N_0

/-- Row r of the feature block at point t is row 5000·t + r of the array. -/
theorem read_agg (c : Dev nD) (t : Fin cfg0.N) (r : Fin 5000) (k : Fin 128) (p : Fin 100000) (hp : p.val = 5000 * t.val + r.val) :
    iblk0 V c 0 t (ix2 r k) = V c main_v26 (ix2 p k) := by
  obtain ⟨e00, e01, -⟩ := idx_facts t
  show V c main_v26 (((cfg0.win 0).blk t).view.emb (ix2 r k)) = V c main_v26 (ix2 p k)
  refine congrArg (V c main_v26) (funext fun a => Fin.ext ?_)
  match a with
  | ⟨0, _⟩ => show win0_0.index t (0 : Fin 2) * 5000 + 1 * r.val = p.val; omega
  | ⟨1, _⟩ => show win0_0.index t (1 : Fin 2) * 128 + 1 * k.val = k.val; omega

/-- Row r of the factor block at point t is row 5000·t + r of the table. -/
theorem read_invs (c : Dev nD) (t : Fin cfg0.N) (r : Fin 5000) (u : Fin 2) (p : Fin 100000) (hp : p.val = 5000 * t.val + r.val) :
    iblk0 V c 1 t (ix2 r u) = V c main_v13 (ix2 p u) := by
  obtain ⟨-, -, e10, e11, -⟩ := idx_facts t
  show V c main_v13 (((cfg0.win 1).blk t).view.emb (ix2 r u)) = V c main_v13 (ix2 p u)
  refine congrArg (V c main_v13) (funext fun a => Fin.ext ?_)
  match a with
  | ⟨0, _⟩ => show win0_1.index t (0 : Fin 2) * 5000 + 1 * r.val = p.val; omega
  | ⟨1, _⟩ => show win0_1.index t (1 : Fin 2) * 2 + 1 * u.val = u.val; omega

/-- The weight block at every point is the whole weight matrix. -/
theorem read_w (c : Dev nD) (t : Fin cfg0.N) (k q : Fin 128) : iblk0 V c 2 t (ix2 k q) = V c main_arg3 (ix2 k q) := by
  obtain ⟨-, -, -, -, e20, e21, -⟩ := idx_facts t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias block at every point is the whole bias row. -/
theorem read_b (c : Dev nD) (t : Fin cfg0.N) (u : Fin 1) (q : Fin 128) : iblk0 V c 3 t (ix2 u q) = V c main_v27 (ix2 u q) := by
  obtain ⟨-, -, -, -, -, -, e30, e31, -⟩ := idx_facts t
  show V c main_v27 (((cfg0.win 3).blk t).view.emb (ix2 u q)) = V c main_v27 (ix2 u q)
  refine congrArg (V c main_v27) (funext fun a => Fin.ext ?_)
  match a with
  | ⟨0, _⟩ => show win0_3.index t (0 : Fin 2) * 1 + 1 * u.val = u.val; omega
  | ⟨1, _⟩ => show win0_3.index t (1 : Fin 2) * 128 + 1 * q.val = q.val; omega

/-- What point t writes back is block t of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  obtain ⟨-, -, -, -, -, -, -, -, e40, e41⟩ := idx_facts t
  have ht := point_lt t
  funext j
  obtain ⟨r, q, rfl⟩ : ∃ (r : Fin 5000) (q : Fin 128), j = ix2 r q := ⟨j 0, j 1, eq_ix2 j⟩
  refine (block_apply (iblk0 V c 0 t) (iblk0 V c 1 t) (iblk0 V c 2 t) (iblk0 V c 3 t) r q).trans ?_
  have hr := r.isLt
  let p : Fin 100000 := ⟨5000 * t.val + r.val, by omega⟩
  have hemb : ((cfg0.win 4).blk t).view.emb (ix2 r q) = ix2 p q := funext fun a => Fin.ext (by
    match a with
    | ⟨0, _⟩ => show win0_4.index t (0 : Fin 2) * 5000 + 1 * r.val = 5000 * t.val + r.val; omega
    | ⟨1, _⟩ => show win0_4.index t (1 : Fin 2) * 128 + 1 * q.val = q.val; omega)
  refine Eq.trans ?_ (congrArg (G V c) hemb).symm
  show _ = GCN.denseAt (V c main_v26) (V c main_arg3) (fun p => V c main_v13 (ix2 p (0 : Fin 2))) (fun q => V c main_v27 (ix2 (0 : Fin 1) q)) p q
      * V c main_v13 (ix2 p (1 : Fin 2))
  unfold GCN.denseAt
  simp only [fun k => read_agg V c t r k p rfl, fun k => read_w V c t k q, read_invs V c t r 0 p rfl,
    read_invs V c t r 1 p rfl, read_b V c t 0 q]
  try rfl

/-- An index is in point t's output block iff each coordinate is in the block's range. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v28).slice (win0_4.rect t)).set ↔ _
  rw [View.set_slice_whole, Rect.mem_set_unit]
  exact Iff.rfl

/-- Every index of the array is in some point's block: row i is in block i / 5000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := by show _ < grid0.N; rw [N_0]; omega
  obtain ⟨-, -, -, -, -, -, -, -, e40, e41⟩ := idx_facts ⟨(i 0).val / 5000, hN⟩
  refine ⟨⟨(i 0).val / 5000, hN⟩, flush0_4 _, ?_⟩
  rw [mem_blk]
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hN⟩ (1 : Fin 2) * 128 ≤ (i 1).val
      ∧ (i 1).val < win0_4.index ⟨(i 0).val / 5000, hN⟩ (1 : Fin 2) * 128 + 128
    rw [e41]; omega

/-- The output array after the launch. -/
theorem array (c : Dev nD) : (dat0 V c).arrAt 4 cfg0.N = G V c :=
  (dat0 V c).arrAt_eq_of_cover 4 (G V c) (fun t _ => flushed_eq V c t) cover

end Cert.KernelIdeal.Region0

end
-- ==== Proof.Region1.lean ====
/-
  What launch 1 of the scaled transform leaves in its output array.

  The launch walks 20 grid points; point t stages rows 5000·t … 5000·t + 4999 of the aggregated features and of the
  factor table, the whole weight matrix and the bias row, and writes back the same rows of the output. Entry (r, q) of the
  block it writes is the dense layer's entry at node 5000·t + r scaled by that node's second factor, so each written
  block is the restriction of one whole-array function, `GCN.layerScaled` of the arrays the launch found; the 20 blocks
  cover the array (row i lies in block i / 5000), hence the array ends as that function.
-/
import proofs.«122499_j17145509445914_2_alg».proof.Proof.Gen.KernelIdeal.Frame
import proofs.«122499_j17145509445914_2_alg».proof.Proof.BodyValue
import proofs.«122499_j17145509445914_2_alg».proof.Proof.Spec
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's load of the factor table's first column reads (r, 0). -/
theorem ld_col0 (x1 : Vec Ideal S5000x2 .f32) (r : Fin 5000) (u : Fin 1) : View.ld x1 r1_2 (ix2 r u) = x1 (ix2 r (0 : Fin 2)) :=
  congrArg x1 (funext fun a => Fin.ext (by
    match a with
    | ⟨0, _⟩ => show 0 + 1 * r.val = r.val; omega
    | ⟨1, _⟩ => show 0 + 1 * u.val = 0; have := u.isLt; omega))

/-- The body's load of the factor table's second column reads (r, 1). -/
theorem ld_col1 (x1 : Vec Ideal S5000x2 .f32) (r : Fin 5000) (u : Fin 1) : View.ld x1 r1_3 (ix2 r u) = x1 (ix2 r (1 : Fin 2)) :=
  congrArg x1 (funext fun a => Fin.ext (by
    match a with
    | ⟨0, _⟩ => show 0 + 1 * r.val = r.val; omega
    | ⟨1, _⟩ => show 1 + 1 * u.val = 1; have := u.isLt; omega))

/-- Entry (r, q) of the block the body leaves, from the staged blocks. -/
theorem block_apply (x0 : Vec Ideal S5000x128 .f32) (x1 : Vec Ideal S5000x2 .f32) (x2 : Vec Ideal S128x128 .f32)
    (x3 : Vec Ideal S1x128 .f32) (r : Fin 5000) (q : Fin 128) :
    out1_4 x0 x1 x2 x3 (ix2 r q)
      = max ((∑ k : Fin 128, x0 (ix2 r k) * x2 (ix2 k q)) * x1 (ix2 r (0 : Fin 2)) + x3 (ix2 (0 : Fin 1) q))
          (Ideal.ofBits .f32 0x00000000#32) * x1 (ix2 r (1 : Fin 2)) := by
  unfold out1_4
  rw [View.canon_unit_zero hz]
  simp only [View.ld_unit_zero (S := S5000x128) hz, View.ld_unit_zero (S := S128x128) hz, View.ld_unit_zero (S := S1x128) hz]
  rw [BodyValue.k1_eq]
  refine (BodyValue.scaled_apply _ _ _ _ _ r q).trans ?_
  rw [ld_col0, ld_col1]

/-- The array the launch leaves: the scaled dense layer of the arrays it found. -/
def G (c : Dev nD) : S100000x128.Idx → Elt Ideal .f32 :=
  GCN.layerScaled (V c main_v38) (V c main_arg5) (fun p => V c main_v13 (ix2 p (0 : Fin 2))) (fun p => V c main_v13 (ix2 p (1 : Fin 2)))
    (fun q => V c main_v39 (ix2 (0 : Fin 1) q))

/-- The windows' block indices over the grid: the row-blocked windows move with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 20 := lt_of_lt_of_eq t.isLt N_1

/-- Row r of the feature block at point t is row 5000·t + r of the array. -/
theorem read_agg (c : Dev nD) (t : Fin cfg1.N) (r : Fin 5000) (k : Fin 128) (p : Fin 100000) (hp : p.val = 5000 * t.val + r.val) :
    iblk1 V c 0 t (ix2 r k) = V c main_v38 (ix2 p k) := by
  obtain ⟨e00, e01, -⟩ := idx_facts t
  show V c main_v38 (((cfg1.win 0).blk t).view.emb (ix2 r k)) = V c main_v38 (ix2 p k)
  refine congrArg (V c main_v38) (funext fun a => Fin.ext ?_)
  match a with
  | ⟨0, _⟩ => show win1_0.index t (0 : Fin 2) * 5000 + 1 * r.val = p.val; omega
  | ⟨1, _⟩ => show win1_0.index t (1 : Fin 2) * 128 + 1 * k.val = k.val; omega

/-- Row r of the factor block at point t is row 5000·t + r of the table. -/
theorem read_invs (c : Dev nD) (t : Fin cfg1.N) (r : Fin 5000) (u : Fin 2) (p : Fin 100000) (hp : p.val = 5000 * t.val + r.val) :
    iblk1 V c 1 t (ix2 r u) = V c main_v13 (ix2 p u) := by
  obtain ⟨-, -, e10, e11, -⟩ := idx_facts t
  show V c main_v13 (((cfg1.win 1).blk t).view.emb (ix2 r u)) = V c main_v13 (ix2 p u)
  refine congrArg (V c main_v13) (funext fun a => Fin.ext ?_)
  match a with
  | ⟨0, _⟩ => show win1_1.index t (0 : Fin 2) * 5000 + 1 * r.val = p.val; omega
  | ⟨1, _⟩ => show win1_1.index t (1 : Fin 2) * 2 + 1 * u.val = u.val; omega

/-- The weight block at every point is the whole weight matrix. -/
theorem read_w (c : Dev nD) (t : Fin cfg1.N) (k q : Fin 128) : iblk1 V c 2 t (ix2 k q) = V c main_arg5 (ix2 k q) := by
  obtain ⟨-, -, -, -, e20, e21, -⟩ := idx_facts t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias block at every point is the whole bias row. -/
theorem read_b (c : Dev nD) (t : Fin cfg1.N) (u : Fin 1) (q : Fin 128) : iblk1 V c 3 t (ix2 u q) = V c main_v39 (ix2 u q) := by
  obtain ⟨-, -, -, -, -, -, e30, e31, -⟩ := idx_facts t
  show V c main_v39 (((cfg1.win 3).blk t).view.emb (ix2 u q)) = V c main_v39 (ix2 u q)
  refine congrArg (V c main_v39) (funext fun a => Fin.ext ?_)
  match a with
  | ⟨0, _⟩ => show win1_3.index t (0 : Fin 2) * 1 + 1 * u.val = u.val; omega
  | ⟨1, _⟩ => show win1_3.index t (1 : Fin 2) * 128 + 1 * q.val = q.val; omega

/-- What point t writes back is block t of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  obtain ⟨-, -, -, -, -, -, -, -, e40, e41⟩ := idx_facts t
  have ht := point_lt t
  funext j
  obtain ⟨r, q, rfl⟩ : ∃ (r : Fin 5000) (q : Fin 128), j = ix2 r q := ⟨j 0, j 1, eq_ix2 j⟩
  refine (block_apply (iblk1 V c 0 t) (iblk1 V c 1 t) (iblk1 V c 2 t) (iblk1 V c 3 t) r q).trans ?_
  have hr := r.isLt
  let p : Fin 100000 := ⟨5000 * t.val + r.val, by omega⟩
  have hemb : ((cfg1.win 4).blk t).view.emb (ix2 r q) = ix2 p q := funext fun a => Fin.ext (by
    match a with
    | ⟨0, _⟩ => show win1_4.index t (0 : Fin 2) * 5000 + 1 * r.val = 5000 * t.val + r.val; omega
    | ⟨1, _⟩ => show win1_4.index t (1 : Fin 2) * 128 + 1 * q.val = q.val; omega)
  refine Eq.trans ?_ (congrArg (G V c) hemb).symm
  show _ = GCN.denseAt (V c main_v38) (V c main_arg5) (fun p => V c main_v13 (ix2 p (0 : Fin 2))) (fun q => V c main_v39 (ix2 (0 : Fin 1) q)) p q
      * V c main_v13 (ix2 p (1 : Fin 2))
  unfold GCN.denseAt
  simp only [fun k => read_agg V c t r k p rfl, fun k => read_w V c t k q, read_invs V c t r 0 p rfl,
    read_invs V c t r 1 p rfl, read_b V c t 0 q]
  try rfl

/-- An index is in point t's output block iff each coordinate is in the block's range. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v40).slice (win1_4.rect t)).set ↔ _
  rw [View.set_slice_whole, Rect.mem_set_unit]
  exact Iff.rfl

/-- Every index of the array is in some point's block: row i is in block i / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := by show _ < grid1.N; rw [N_1]; omega
  obtain ⟨-, -, -, -, -, -, -, -, e40, e41⟩ := idx_facts ⟨(i 0).val / 5000, hN⟩
  refine ⟨⟨(i 0).val / 5000, hN⟩, flush1_4 _, ?_⟩
  rw [mem_blk]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [e41]; omega

/-- The output array after the launch. -/
theorem array (c : Dev nD) : (dat1 V c).arrAt 4 cfg1.N = G V c :=
  (dat1 V c).arrAt_eq_of_cover 4 (G V c) (fun t _ => flushed_eq V c t) cover

end Cert.KernelIdeal.Region1

end
-- ==== Proof.Region2.lean ====
/-
  What launch 2 of the scaled transform leaves in its output array.

  The launch walks 20 grid points; point t stages rows 5000·t … 5000·t + 4999 of the aggregated features and of the
  factor table, the whole weight matrix and the bias row, and writes back the same rows of the output. Entry (r, q) of the
  block it writes is the dense layer's entry at node 5000·t + r scaled by that node's second factor, so each written
  block is the restriction of one whole-array function, `GCN.layerScaled` of the arrays the launch found; the 20 blocks
  cover the array (row i lies in block i / 5000), hence the array ends as that function.
-/
import proofs.«122499_j17145509445914_2_alg».proof.Proof.Gen.KernelIdeal.Frame
import proofs.«122499_j17145509445914_2_alg».proof.Proof.BodyValue
import proofs.«122499_j17145509445914_2_alg».proof.Proof.Spec
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's load of the factor table's first column reads (r, 0). -/
theorem ld_col0 (x1 : Vec Ideal S5000x2 .f32) (r : Fin 5000) (u : Fin 1) : View.ld x1 r2_2 (ix2 r u) = x1 (ix2 r (0 : Fin 2)) :=
  congrArg x1 (funext fun a => Fin.ext (by
    match a with
    | ⟨0, _⟩ => show 0 + 1 * r.val = r.val; omega
    | ⟨1, _⟩ => show 0 + 1 * u.val = 0; have := u.isLt; omega))

/-- The body's load of the factor table's second column reads (r, 1). -/
theorem ld_col1 (x1 : Vec Ideal S5000x2 .f32) (r : Fin 5000) (u : Fin 1) : View.ld x1 r2_3 (ix2 r u) = x1 (ix2 r (1 : Fin 2)) :=
  congrArg x1 (funext fun a => Fin.ext (by
    match a with
    | ⟨0, _⟩ => show 0 + 1 * r.val = r.val; omega
    | ⟨1, _⟩ => show 1 + 1 * u.val = 1; have := u.isLt; omega))

/-- Entry (r, q) of the block the body leaves, from the staged blocks. -/
theorem block_apply (x0 : Vec Ideal S5000x128 .f32) (x1 : Vec Ideal S5000x2 .f32) (x2 : Vec Ideal S128x128 .f32)
    (x3 : Vec Ideal S1x128 .f32) (r : Fin 5000) (q : Fin 128) :
    out2_4 x0 x1 x2 x3 (ix2 r q)
      = max ((∑ k : Fin 128, x0 (ix2 r k) * x2 (ix2 k q)) * x1 (ix2 r (0 : Fin 2)) + x3 (ix2 (0 : Fin 1) q))
          (Ideal.ofBits .f32 0x00000000#32) * x1 (ix2 r (1 : Fin 2)) := by
  unfold out2_4
  rw [View.canon_unit_zero hz]
  simp only [View.ld_unit_zero (S := S5000x128) hz, View.ld_unit_zero (S := S128x128) hz, View.ld_unit_zero (S := S1x128) hz]
  rw [BodyValue.k2_eq]
  refine (BodyValue.scaled_apply _ _ _ _ _ r q).trans ?_
  rw [ld_col0, ld_col1]

/-- The array the launch leaves: the scaled dense layer of the arrays it found. -/
def G (c : Dev nD) : S100000x128.Idx → Elt Ideal .f32 :=
  GCN.layerScaled (V c main_v50) (V c main_arg7) (fun p => V c main_v13 (ix2 p (0 : Fin 2))) (fun p => V c main_v13 (ix2 p (1 : Fin 2)))
    (fun q => V c main_v51 (ix2 (0 : Fin 1) q))

/-- The windows' block indices over the grid: the row-blocked windows move with the point, the others stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 20 := lt_of_lt_of_eq t.isLt N_2

/-- Row r of the feature block at point t is row 5000·t + r of the array. -/
theorem read_agg (c : Dev nD) (t : Fin cfg2.N) (r : Fin 5000) (k : Fin 128) (p : Fin 100000) (hp : p.val = 5000 * t.val + r.val) :
    iblk2 V c 0 t (ix2 r k) = V c main_v50 (ix2 p k) := by
  obtain ⟨e00, e01, -⟩ := idx_facts t
  show V c main_v50 (((cfg2.win 0).blk t).view.emb (ix2 r k)) = V c main_v50 (ix2 p k)
  refine congrArg (V c main_v50) (funext fun a => Fin.ext ?_)
  match a with
  | ⟨0, _⟩ => show win2_0.index t (0 : Fin 2) * 5000 + 1 * r.val = p.val; omega
  | ⟨1, _⟩ => show win2_0.index t (1 : Fin 2) * 128 + 1 * k.val = k.val; omega

/-- Row r of the factor block at point t is row 5000·t + r of the table. -/
theorem read_invs (c : Dev nD) (t : Fin cfg2.N) (r : Fin 5000) (u : Fin 2) (p : Fin 100000) (hp : p.val = 5000 * t.val + r.val) :
    iblk2 V c 1 t (ix2 r u) = V c main_v13 (ix2 p u) := by
  obtain ⟨-, -, e10, e11, -⟩ := idx_facts t
  show V c main_v13 (((cfg2.win 1).blk t).view.emb (ix2 r u)) = V c main_v13 (ix2 p u)
  refine congrArg (V c main_v13) (funext fun a => Fin.ext ?_)
  match a with
  | ⟨0, _⟩ => show win2_1.index t (0 : Fin 2) * 5000 + 1 * r.val = p.val; omega
  | ⟨1, _⟩ => show win2_1.index t (1 : Fin 2) * 2 + 1 * u.val = u.val; omega

/-- The weight block at every point is the whole weight matrix. -/
theorem read_w (c : Dev nD) (t : Fin cfg2.N) (k q : Fin 128) : iblk2 V c 2 t (ix2 k q) = V c main_arg7 (ix2 k q) := by
  obtain ⟨-, -, -, -, e20, e21, -⟩ := idx_facts t
  show V c main_arg7 (((cfg2.win 2).blk t).view.emb (ix2 k q)) = V c main_arg7 (ix2 k q)
  refine congrArg (V c main_arg7) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias block at every point is the whole bias row. -/
theorem read_b (c : Dev nD) (t : Fin cfg2.N) (u : Fin 1) (q : Fin 128) : iblk2 V c 3 t (ix2 u q) = V c main_v51 (ix2 u q) := by
  obtain ⟨-, -, -, -, -, -, e30, e31, -⟩ := idx_facts t
  show V c main_v51 (((cfg2.win 3).blk t).view.emb (ix2 u q)) = V c main_v51 (ix2 u q)
  refine congrArg (V c main_v51) (funext fun a => Fin.ext ?_)
  match a with
  | ⟨0, _⟩ => show win2_3.index t (0 : Fin 2) * 1 + 1 * u.val = u.val; omega
  | ⟨1, _⟩ => show win2_3.index t (1 : Fin 2) * 128 + 1 * q.val = q.val; omega

/-- What point t writes back is block t of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  obtain ⟨-, -, -, -, -, -, -, -, e40, e41⟩ := idx_facts t
  have ht := point_lt t
  funext j
  obtain ⟨r, q, rfl⟩ : ∃ (r : Fin 5000) (q : Fin 128), j = ix2 r q := ⟨j 0, j 1, eq_ix2 j⟩
  refine (block_apply (iblk2 V c 0 t) (iblk2 V c 1 t) (iblk2 V c 2 t) (iblk2 V c 3 t) r q).trans ?_
  have hr := r.isLt
  let p : Fin 100000 := ⟨5000 * t.val + r.val, by omega⟩
  have hemb : ((cfg2.win 4).blk t).view.emb (ix2 r q) = ix2 p q := funext fun a => Fin.ext (by
    match a with
    | ⟨0, _⟩ => show win2_4.index t (0 : Fin 2) * 5000 + 1 * r.val = 5000 * t.val + r.val; omega
    | ⟨1, _⟩ => show win2_4.index t (1 : Fin 2) * 128 + 1 * q.val = q.val; omega)
  refine Eq.trans ?_ (congrArg (G V c) hemb).symm
  show _ = GCN.denseAt (V c main_v50) (V c main_arg7) (fun p => V c main_v13 (ix2 p (0 : Fin 2))) (fun q => V c main_v51 (ix2 (0 : Fin 1) q)) p q
      * V c main_v13 (ix2 p (1 : Fin 2))
  unfold GCN.denseAt
  simp only [fun k => read_agg V c t r k p rfl, fun k => read_w V c t k q, read_invs V c t r 0 p rfl,
    read_invs V c t r 1 p rfl, read_b V c t 0 q]
  try rfl

/-- An index is in point t's output block iff each coordinate is in the block's range. -/
theorem mem_blk (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v52).slice (win2_4.rect t)).set ↔ _
  rw [View.set_slice_whole, Rect.mem_set_unit]
  exact Iff.rfl

/-- Every index of the array is in some point's block: row i is in block i / 5000. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : (i 0).val / 5000 < cfg2.N := by show _ < grid2.N; rw [N_2]; omega
  obtain ⟨-, -, -, -, -, -, -, -, e40, e41⟩ := idx_facts ⟨(i 0).val / 5000, hN⟩
  refine ⟨⟨(i 0).val / 5000, hN⟩, flush2_4 _, ?_⟩
  rw [mem_blk]
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hN⟩ (1 : Fin 2) * 128 ≤ (i 1).val
      ∧ (i 1).val < win2_4.index ⟨(i 0).val / 5000, hN⟩ (1 : Fin 2) * 128 + 128
    rw [e41]; omega

/-- The output array after the launch. -/
theorem array (c : Dev nD) : (dat2 V c).arrAt 4 cfg2.N = G V c :=
  (dat2 V c).arrAt_eq_of_cover 4 (G V c) (fun t _ => flushed_eq V c t) cover

end Cert.KernelIdeal.Region2

end
-- ==== Proof.Region3.lean ====
/-
  What the launch of the pooling transform leaves in its output array.

  The launch walks 20 grid points; point t stages rows 5000·t … 5000·t + 4999 of the aggregated features and of the
  in-degree factor column, the whole weight matrix and the bias row, fills its [8, 128] output block with zeros and then
  overwrites the block's first row with the column sums of the clipped dense layer over the 5000 staged rows. The later
  store wins where the two overlap, so the block holds the sums in row 0 and zeros in rows 1 … 7; written back as rows
  8·t … 8·t + 7 of the [160, 128] output, the 20 blocks cover it, and the array ends as `GCN.pooledBlocks`.
-/
import proofs.«122499_j17145509445914_2_alg».proof.Proof.Gen.KernelIdeal.Frame
import proofs.«122499_j17145509445914_2_alg».proof.Proof.BodyValue
import proofs.«122499_j17145509445914_2_alg».proof.Proof.Spec
import Idealize.ShloMosaic.Lib.Pipeline.Value

set_option maxRecDepth 16384

noncomputable section

open scoped BigOperators

namespace Cert.KernelIdeal.Region3

open Cert.KernelIdeal Cert.KernelIdeal.Gen Idealize.ShloMosaic Idealize.ShloMosaic.ValueIdx Idealize.ShloMosaic.TcCoe Idealize.SL.Sem
open Idealize.ShloMosaic.Tactic

variable (V : (c : Dev nD) → (b : Ref sig .tc) → Buf (Elt Ideal) ((c : Thread nD τ).loc b))

theorem hz : (![0, 0] : Fin 2 → Nat) = fun _ => 0 := funext fun a => by fin_cases a <;> rfl

/-- The body's two stores as a list, the later one first: the row of column sums over the zero fill. -/
theorem pieces_eq (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S8x128 .f32) (harg5 : arg5.IsWhole)
    (x0 : Vec Ideal S5000x128 .f32) (x1 : Vec Ideal S5000x1 .f32) (x2 : Vec Ideal S128x128 .f32) (x3 : Vec Ideal S1x128 .f32) :
    out3_A_4 (F := Ideal) c i arg1 harg1 arg2 harg2 arg3 harg3 arg4 harg4 arg5 harg5 x0 x1 x2 x3
      = View.canon [(⟨Rect.unit (s := S8x128) ![0, 0] S1x128.size inb_S8x128_S1x128_0_0, k3_pay1 x0 x2 x1 x3⟩ : View.Piece (Elt Ideal) S8x128 .f32),
          ⟨Rect.unit (s := S8x128) ![0, 0] S8x128.size inb_S8x128_S8x128_0_0, k3_pay2 (F := Ideal)⟩] := by
  unfold out3_A_4
  rw [View.read_writes_eq_canon _ _ _ (cover3_A_4 c i arg1 harg1 arg2 harg2 arg3 harg3 arg4 harg4 arg5 harg5 x0 x1 x2 x3)]
  unfold kernelRun3_A
  dsimp only
  sl_unfold_words
  simp only [View.readAt_eq_ld, harg1.read_unread, harg2.read_unread, harg3.read_unread, harg4.read_unread,
    View.ld_unit_zero (S := S5000x128) hz, View.ld_unit_zero (S := S128x128) hz, View.ld_unit_zero (S := S5000x1) hz,
    View.ld_unit_zero (S := S1x128) hz]

/-- Entry (s, q) of the block the body leaves: the column sum in row 0, the zero word's value below. -/
theorem out_apply (c : Dev nD) (i : grid3.Coords) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S8x128 .f32) (harg5 : arg5.IsWhole)
    (x0 : Vec Ideal S5000x128 .f32) (x1 : Vec Ideal S5000x1 .f32) (x2 : Vec Ideal S128x128 .f32) (x3 : Vec Ideal S1x128 .f32) (s : Fin 8) (q : Fin 128) :
    out3_A_4 (F := Ideal) c i arg1 harg1 arg2 harg2 arg3 harg3 arg4 harg4 arg5 harg5 x0 x1 x2 x3 (ix2 s q)
      = if s.val = 0 then k3_pay1 x0 x2 x1 x3 (ix2 (0 : Fin 1) q) else Ideal.ofBits .f32 0x00000000#32 := by
  rw [pieces_eq]
  by_cases hs : s.val = 0
  · rw [if_pos hs]
    have he : ix2 s q = (Rect.unit (s := S8x128) ![0, 0] S1x128.size inb_S8x128_S1x128_0_0).emb (ix2 (0 : Fin 1) q) :=
      funext fun a => Fin.ext (by
        match a with
        | ⟨0, _⟩ => show s.val = 0 + 1 * 0; omega
        | ⟨1, _⟩ => show q.val = 0 + 1 * q.val; omega)
    rw [he]
    exact View.canon_cons_emb _ _ _ _
  · rw [if_neg hs]
    have hn : ix2 s q ∉ (Rect.unit (s := S8x128) ![0, 0] S1x128.size inb_S8x128_S1x128_0_0).set := by
      rw [Rect.mem_set_unit]
      intro h
      have h0 : 0 ≤ s.val ∧ s.val < 0 + 1 := h 0
      omega
    rw [View.canon_cons_of_not_mem _ _ hn, View.canon_unit_zero hz]
    rfl

/-- The array the launch leaves: the blockwise column sums of the dense layer of the arrays it found. -/
def G (c : Dev nD) : S160x128.Idx → Elt Ideal .f32 :=
  GCN.pooledBlocks (V c main_v62) (V c main_arg9) (fun p => V c main_v63 (ix2 p (0 : Fin 1))) (fun q => V c main_v64 (ix2 (0 : Fin 1) q))

/-- The windows' block indices over the grid: the row-blocked windows move with the point, the others stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem point_lt (t : Fin cfg3.N) : t.val < 20 := lt_of_lt_of_eq t.isLt N_3

/-- Row r of the feature block at point t is row 5000·t + r of the array. -/
theorem read_agg (c : Dev nD) (t : Fin cfg3.N) (r : Fin 5000) (k : Fin 128) (p : Fin 100000) (hp : p.val = 5000 * t.val + r.val) :
    iblk3 V c 0 t (ix2 r k) = V c main_v62 (ix2 p k) := by
  obtain ⟨e00, e01, -⟩ := idx_facts t
  show V c main_v62 (((cfg3.win 0).blk t).view.emb (ix2 r k)) = V c main_v62 (ix2 p k)
  refine congrArg (V c main_v62) (funext fun a => Fin.ext ?_)
  match a with
  | ⟨0, _⟩ => show win3_0.index t (0 : Fin 2) * 5000 + 1 * r.val = p.val; omega
  | ⟨1, _⟩ => show win3_0.index t (1 : Fin 2) * 128 + 1 * k.val = k.val; omega

/-- Row r of the factor block at point t is row 5000·t + r of the factor column. -/
theorem read_isi (c : Dev nD) (t : Fin cfg3.N) (r : Fin 5000) (u : Fin 1) (p : Fin 100000) (hp : p.val = 5000 * t.val + r.val) :
    iblk3 V c 1 t (ix2 r u) = V c main_v63 (ix2 p u) := by
  obtain ⟨-, -, e10, e11, -⟩ := idx_facts t
  show V c main_v63 (((cfg3.win 1).blk t).view.emb (ix2 r u)) = V c main_v63 (ix2 p u)
  refine congrArg (V c main_v63) (funext fun a => Fin.ext ?_)
  match a with
  | ⟨0, _⟩ => show win3_1.index t (0 : Fin 2) * 5000 + 1 * r.val = p.val; omega
  | ⟨1, _⟩ => show win3_1.index t (1 : Fin 2) * 1 + 1 * u.val = u.val; omega

/-- The weight block at every point is the whole weight matrix. -/
theorem read_w (c : Dev nD) (t : Fin cfg3.N) (k q : Fin 128) : iblk3 V c 2 t (ix2 k q) = V c main_arg9 (ix2 k q) := by
  obtain ⟨-, -, -, -, e20, e21, -⟩ := idx_facts t
  show V c main_arg9 (((cfg3.win 2).blk t).view.emb (ix2 k q)) = V c main_arg9 (ix2 k q)
  refine congrArg (V c main_arg9) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The bias block at every point is the whole bias row. -/
theorem read_b (c : Dev nD) (t : Fin cfg3.N) (u : Fin 1) (q : Fin 128) : iblk3 V c 3 t (ix2 u q) = V c main_v64 (ix2 u q) := by
  obtain ⟨-, -, -, -, -, -, e30, e31, -⟩ := idx_facts t
  show V c main_v64 (((cfg3.win 3).blk t).view.emb (ix2 u q)) = V c main_v64 (ix2 u q)
  refine congrArg (V c main_v64) (funext fun a => Fin.ext ?_)
  match a with
  | ⟨0, _⟩ => show win3_3.index t (0 : Fin 2) * 1 + 1 * u.val = u.val; omega
  | ⟨1, _⟩ => show win3_3.index t (1 : Fin 2) * 128 + 1 * q.val = q.val; omega

/-- What point t writes back is block t of `G`. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  obtain ⟨-, -, -, -, -, -, -, -, e40, e41⟩ := idx_facts t
  have ht := point_lt t
  funext j
  obtain ⟨s, q, rfl⟩ : ∃ (s : Fin 8) (q : Fin 128), j = ix2 s q := ⟨j 0, j 1, eq_ix2 j⟩
  have hs := s.isLt
  unfold outsAt3
  refine (out_apply c (grid3.coords t) (ms3_0 t) (hs3_0 t) (ms3_1 t) (hs3_1 t) (ms3_2 t) (hs3_2 t) (ms3_3 t) (hs3_3 t)
    (ms3_4 t) (hs3_4 t) (iblk3 V c 0 t) (iblk3 V c 1 t) (iblk3 V c 2 t) (iblk3 V c 3 t) s q).trans ?_
  let κ : Fin 160 := ⟨8 * t.val + s.val, by omega⟩
  have hemb : ((cfg3.win 4).blk t).view.emb (ix2 s q) = ix2 κ q := funext fun a => Fin.ext (by
    match a with
    | ⟨0, _⟩ => show win3_4.index t (0 : Fin 2) * 8 + 1 * s.val = 8 * t.val + s.val; omega
    | ⟨1, _⟩ => show win3_4.index t (1 : Fin 2) * 128 + 1 * q.val = q.val; omega)
  refine Eq.trans ?_ (congrArg (G V c) hemb).symm
  show _ = GCN.pooledAt (V c main_v62) (V c main_arg9) (fun p => V c main_v63 (ix2 p (0 : Fin 1))) (fun q => V c main_v64 (ix2 (0 : Fin 1) q)) κ q
  unfold GCN.pooledAt
  by_cases h0 : s.val = 0
  · have hk : κ.val % 8 = 0 := by show (8 * t.val + s.val) % 8 = 0; omega
    rw [if_pos h0, if_pos hk]
    refine (BodyValue.pooled_apply (iblk3 V c 0 t) (iblk3 V c 2 t) (iblk3 V c 1 t) (iblk3 V c 3 t) 0 q).trans ?_
    refine Finset.sum_congr rfl fun r _ => ?_
    have hr := r.isLt
    have hq : κ.val / 8 = t.val := by show (8 * t.val + s.val) / 8 = t.val; omega
    unfold GCN.denseAt
    have hp : (⟨5000 * (κ.val / 8) + r.val, by omega⟩ : Fin 100000).val = 5000 * t.val + r.val := by
      show 5000 * (κ.val / 8) + r.val = _; rw [hq]
    simp only [fun k => read_agg V c t r k ⟨5000 * (κ.val / 8) + r.val, by omega⟩ hp, fun k => read_w V c t k q,
      read_isi V c t r 0 ⟨5000 * (κ.val / 8) + r.val, by omega⟩ hp, read_b V c t 0 q]
    try rfl
  · have hk : ¬ κ.val % 8 = 0 := by show ¬ (8 * t.val + s.val) % 8 = 0; omega
    rw [if_neg h0, if_neg hk]

/-- An index is in point t's output block iff each coordinate is in the block's range. -/
theorem mem_blk (t : Fin cfg3.N) (i : S160x128.Idx) :
    i ∈ ((cfg3.win 4).blk t).view.set ↔ ∀ a : Fin 2, win3_4.index t a * S8x128.size a ≤ (i a).val
      ∧ (i a).val < win3_4.index t a * S8x128.size a + S8x128.size a := by
  show i ∈ ((View.whole main_v65).slice (win3_4.rect t)).set ↔ _
  rw [View.set_slice_whole, Rect.mem_set_unit]
  exact Iff.rfl

/-- Every index of the array is in some point's block: row i is in block i / 8. -/
theorem cover (i : S160x128.Idx) :
    ∃ t : Fin cfg3.N, (cfg3.win 4).flush t = true ∧ i ∈ ((cfg3.win 4).blk t).view.set := by
  have hi0 : (i 0).val < 160 := (i 0).isLt
  have hi1 : (i 1).val < 128 := (i 1).isLt
  have hN : (i 0).val / 8 < cfg3.N := by show _ < grid3.N; rw [N_3]; omega
  obtain ⟨-, -, -, -, -, -, -, -, e40, e41⟩ := idx_facts ⟨(i 0).val / 8, hN⟩
  refine ⟨⟨(i 0).val / 8, hN⟩, flush3_4 _, ?_⟩
  rw [mem_blk]
  intro a
  match a with
  | ⟨0, _⟩ =>
    show win3_4.index ⟨(i 0).val / 8, hN⟩ (0 : Fin 2) * 8 ≤ (i 0).val
      ∧ (i 0).val < win3_4.index ⟨(i 0).val / 8, hN⟩ (0 : Fin 2) * 8 + 8
    rw [e40]; show (i 0).val / 8 * 8 ≤ (i 0).val ∧ (i 0).val < (i 0).val / 8 * 8 + 8; omega
  | ⟨1, _⟩ =>
    show win3_4.index ⟨(i 0).val / 8, hN⟩ (1 : Fin 2) * 128 ≤ (i 1).val
      ∧ (i 1).val < win3_4.index ⟨(i 0).val / 8, hN⟩ (1 : Fin 2) * 128 + 128
    rw [e41]; omega

/-- The output array after the launch. -/
theorem array (c : Dev nD) : (dat3 V c).arrAt 4 cfg3.N = G V c :=
  (dat3 V c).arrAt_eq_of_cover 4 (G V c) (fun t _ => flushed_eq V c t) cover

end Cert.KernelIdeal.Region3

end
-- ==== Proof.HostStretch.lean ====
/-
  The host operations around the kernel launches, stretch by stretch.

  Between the launches the program runs lines of whole-array operations. Each line is read here as a function of the
  buffer contents it starts from: the degree factors (the reciprocal square root of each node's edge count, clipped below
  at one), the table holding both factors side by side, the first layer's pre-scaling, the aggregation of node features
  over the edges (a gather along the sources followed by a scatter-add along the destinations, with negative source
  indices wrapped), the reshaped bias rows, and the closing dense head applied to the mean of the pooled sums. A buffer
  that a line does not write keeps its contents.
-/
import proofs.«122499_j17145509445914_2_alg».proof.Proof.Gen.KernelIdeal.Launch
import Idealize.ShloMosaic.Lib.StableHlo.Run
import Idealize.ShloMosaic.Lib.ValueIdx

set_option maxRecDepth 16384

noncomputable section

namespace Cert.KernelIdeal.Host

open Cert.KernelIdeal Cert.KernelIdeal.Gen Idealize.ShloMosaic Idealize.ShloMosaic.ValueIdx Idealize.ShloMosaic.TcCoe Idealize.SL.Sem
open Idealize.ShloMosaic.StableHlo

/-- A float array of a given shape at the extended reals; an array of 32-bit words. -/
abbrev FV (s : Shape) : Type := s.Idx → EReal
abbrev IV (s : Shape) : Type := s.Idx → BitVec 32

/-! ## The pieces as functions -/

/-- Every node's degree factor from a vector of edge endpoints: count the edges at each node by scattering ones, clip the
    count below at one, take the reciprocal square root. -/
def degInv (idx : IV S1600000) : FV S100000 :=
  Host.rsqrt (F := Ideal) (φ := .f32)
    (maximumf (broadcastInDim S100000 ![] bcast_S_S100000 (id (constant (F := Ideal) S_ .f32 0x3F800000#32)))
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))

/-- The two factor vectors side by side as the columns of a [100000, 2] table. -/
def invsTable (isi iso : FV S100000) : FV S100000x2 :=
  concatenate S100000x2 1 [⟨S100000x1, broadcastInDim S100000x1 ![0] bcast_S100000_S100000x1_0 isi⟩,
    ⟨S100000x1, broadcastInDim S100000x1 ![0] bcast_S100000_S100000x1_0 iso⟩] concatenates_S100000x1_S100000x1_S100000x2_d1

/-- The input features with row p scaled by the out-degree factor of node p. -/
def prescale (x : FV S100000x128) (iso : FV S100000) : FV S100000x128 :=
  mulf (F := Ideal) (φ := .f32) x (broadcastInDim S100000x128 ![0, 1] bcast_S100000x1_S100000x128_0_1
    (broadcastInDim S100000x1 ![0] bcast_S100000_S100000x1_0 iso))

/-- The aggregation over the edges: gather the source nodes' rows (a negative source index wrapped by the node count),
    scatter-add them at the destination nodes into a zero array. -/
def aggK (h : FV S100000x128) (src dst : IV S1600000) : FV S100000x128 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A bias vector as a [1, 128] row. -/
def biasRow (b : FV S128) : FV S1x128 := fun i => shapeCast S1x128 b shapeCasts_S128_S1x128 i

/-- A factor vector as a [100000, 1] column. -/
def factorCol (v : FV S100000) : FV S100000x1 := fun i => shapeCast S100000x1 v shapeCasts_S100000_S100000x1 i

/-- The closing head from the column sums: divide by the node count, then three dense layers, the first two clipped at
    zero. -/
def headFrom (s : FV S128) (w1 : FV S128x128) (b1 : FV S128) (w2 : FV S128x128) (b2 : FV S128) (wo : FV S128x1)
    (bo : FV S1) : FV S1x1 :=
  addf (F := Ideal) (φ := .f32)
    (Host.dotGeneral (F := Ideal) (φ₁ := .f32) (φ₂ := .f32) dot_S1x128_S128x1_S1x1_1_0_0_1_n_n none
      (maximumf (F := Ideal) (φ := .f32)
        (addf (F := Ideal) (φ := .f32)
          (Host.dotGeneral (F := Ideal) (φ₁ := .f32) (φ₂ := .f32) dot_S1x128_S128x128_S1x128_1_0_0_1_n_n none
            (maximumf (F := Ideal) (φ := .f32)
              (addf (F := Ideal) (φ := .f32)
                (Host.dotGeneral (F := Ideal) (φ₁ := .f32) (φ₂ := .f32) dot_S1x128_S128x128_S1x128_1_0_0_1_n_n none
                  (Host.divf (F := Ideal) (φ := .f32) (broadcastInDim S1x128 ![1] bcast_S128_S1x128_1 s)
                    (broadcastInDim S1x128 ![] bcast_S_S1x128 (constant (F := Ideal) S_ .f32 0x47C35000#32)))
                  w1)
                (broadcastInDim S1x128 ![1] bcast_S128_S1x128_1 b1))
              (broadcastInDim S1x128 ![] bcast_S_S1x128 (constant (F := Ideal) S_ .f32 0x00000000#32)))
            w2)
          (broadcastInDim S1x128 ![1] bcast_S128_S1x128_1 b2))
        (broadcastInDim S1x128 ![] bcast_S_S1x128 (constant (F := Ideal) S_ .f32 0x00000000#32)))
      wo)
    (broadcastInDim S1x1 ![1] bcast_S1_S1x1_1 bo)

/-- The closing head from the pooled block sums: the host's sum over the 160 rows first. -/
def tailK (P : FV S160x128) (w1 : FV S128x128) (b1 : FV S128) (w2 : FV S128x128) (b2 : FV S128) (wo : FV S128x1)
    (bo : FV S1) : FV S1x1 :=
  headFrom (Host.reduceAdd (F := Ideal) (φ := .f32) P (constant (F := Ideal) S_ .f32 0x00000000#32) reducesTo_S160x128_S128_d0 h_S_)
    w1 b1 w2 b2 wo bo

/-! ## What each stretch leaves, from any starting contents -/

variable (X : Valuation τ sig (Elt Ideal))

/-- The edge count of every node from a vector of edge endpoints, before the clip. -/
def degCount (idx : IV S1600000) : FV S100000 :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

set_option maxHeartbeats 2000000 in
theorem s0_v3 : (StableHlo.after hostOps0 X (Proc.devRef .tc main_v3) : FV S100000) = degCount (X (Proc.devRef .tc main_arg1)) := by
  after_results_simp
  generalize X (Proc.devRef .tc main_arg1) = a
  rfl

set_option maxHeartbeats 2000000 in
theorem s0_v6 : (StableHlo.after hostOps0 X (Proc.devRef .tc main_v6) : FV S100000) = degCount (X (Proc.devRef .tc main_arg2)) := by
  after_results_simp
  generalize X (Proc.devRef .tc main_arg2) = a
  rfl

set_option maxHeartbeats 2000000 in
theorem s0_cst2 : (StableHlo.after hostOps0 X (Proc.devRef .tc main_cst_2) : FV S_) = constant (F := Ideal) S_ .f32 0x3F800000#32 := by
  after_results_simp

/-- The clip of a count array below at a scalar. -/
def clipBelow (one : FV S_) (cnt : FV S100000) : FV S100000 :=
  maximumf (F := Ideal) (φ := .f32) (broadcastInDim S100000 ![] bcast_S_S100000 (id one)) cnt

set_option maxHeartbeats 2000000 in
theorem s01_v7 : (StableHlo.after hostOps0_1 X (Proc.devRef .tc main_v7) : FV S100000)
    = clipBelow (X (Proc.devRef .tc main_cst_2)) (X (Proc.devRef .tc main_v3)) := by
  after_results_simp
  generalize X (Proc.devRef .tc main_cst_2) = a
  generalize X (Proc.devRef .tc main_v3) = b
  rfl

set_option maxHeartbeats 2000000 in
theorem s02_v8 : (StableHlo.after hostOps0_2 X (Proc.devRef .tc main_v8) : FV S100000)
    = Host.rsqrt (F := Ideal) (φ := .f32) (X (Proc.devRef .tc main_v7) : FV S100000) := by
  after_results_simp

set_option maxHeartbeats 2000000 in
theorem s02_cst3 : (StableHlo.after hostOps0_2 X (Proc.devRef .tc main_cst_3) : FV S_) = constant (F := Ideal) S_ .f32 0x3F800000#32 := by
  after_results_simp

set_option maxHeartbeats 2000000 in
theorem s03_v9 : (StableHlo.after hostOps0_3 X (Proc.devRef .tc main_v9) : FV S100000)
    = clipBelow (X (Proc.devRef .tc main_cst_3)) (X (Proc.devRef .tc main_v6)) := by
  after_results_simp
  generalize X (Proc.devRef .tc main_cst_3) = a
  generalize X (Proc.devRef .tc main_v6) = b
  rfl

/-- The degree factor is the reciprocal square root of the clipped count. -/
theorem degInv_eq (idx : IV S1600000) :
    degInv idx = Host.rsqrt (F := Ideal) (φ := .f32) (clipBelow (constant (F := Ideal) S_ .f32 0x3F800000#32) (degCount idx)) := rfl

set_option maxHeartbeats 2000000 in
theorem s04_v10 : (StableHlo.after hostOps0_4 X (Proc.devRef .tc main_v10) : FV S100000)
    = Host.rsqrt (F := Ideal) (φ := .f32) (X (Proc.devRef .tc main_v9) : FV S100000) := by
  after_results_simp

set_option maxHeartbeats 2000000 in
theorem s04_v13 : (StableHlo.after hostOps0_4 X (Proc.devRef .tc main_v13) : FV S100000x2)
    = invsTable (Host.rsqrt (F := Ideal) (φ := .f32) (X (Proc.devRef .tc main_v9) : FV S100000)) (X (Proc.devRef .tc main_v8)) := by
  after_results_simp
  repeat (first
    | rw [StableHlo.unary_result]
    | (rw [StableHlo.unary_result_ne]; rotate_left; decide))
  generalize X (Proc.devRef .tc main_v9) = a
  generalize X (Proc.devRef .tc main_v8) = b
  rfl

set_option maxHeartbeats 2000000 in
theorem s04_v26 : (StableHlo.after hostOps0_4 X (Proc.devRef .tc main_v26) : FV S100000x128)
    = aggK (prescale (X (Proc.devRef .tc main_arg0)) (X (Proc.devRef .tc main_v8))) (X (Proc.devRef .tc main_arg1))
        (X (Proc.devRef .tc main_arg2)) := by
  after_results_simp
  generalize X (Proc.devRef .tc main_arg0) = a0
  generalize X (Proc.devRef .tc main_v8) = a8
  generalize X (Proc.devRef .tc main_arg1) = a1
  generalize X (Proc.devRef .tc main_arg2) = a2
  rfl

set_option maxHeartbeats 2000000 in
theorem s04_v27 : (StableHlo.after hostOps0_4 X (Proc.devRef .tc main_v27) : FV S1x128) = biasRow (X (Proc.devRef .tc main_arg4)) := by
  after_results_simp
  generalize X (Proc.devRef .tc main_arg4) = a
  rfl

set_option maxHeartbeats 2000000 in
theorem s1_agg : (StableHlo.after hostOps1 X (Proc.devRef .tc main_v38) : FV S100000x128)
    = aggK (X (Proc.devRef .tc main_v28)) (X (Proc.devRef .tc main_arg1)) (X (Proc.devRef .tc main_arg2)) := by
  after_results_simp
  generalize X (Proc.devRef .tc main_v28) = a0
  generalize X (Proc.devRef .tc main_arg1) = a1
  generalize X (Proc.devRef .tc main_arg2) = a2
  rfl

set_option maxHeartbeats 2000000 in
theorem s1_bias : (StableHlo.after hostOps1 X (Proc.devRef .tc main_v39) : FV S1x128) = biasRow (X (Proc.devRef .tc main_arg6)) := by
  after_results_simp
  generalize X (Proc.devRef .tc main_arg6) = a
  rfl

set_option maxHeartbeats 2000000 in
theorem s2_agg : (StableHlo.after hostOps2 X (Proc.devRef .tc main_v50) : FV S100000x128)
    = aggK (X (Proc.devRef .tc main_v40)) (X (Proc.devRef .tc main_arg1)) (X (Proc.devRef .tc main_arg2)) := by
  after_results_simp
  generalize X (Proc.devRef .tc main_v40) = a0
  generalize X (Proc.devRef .tc main_arg1) = a1
  generalize X (Proc.devRef .tc main_arg2) = a2
  rfl

set_option maxHeartbeats 2000000 in
theorem s2_bias : (StableHlo.after hostOps2 X (Proc.devRef .tc main_v51) : FV S1x128) = biasRow (X (Proc.devRef .tc main_arg8)) := by
  after_results_simp
  generalize X (Proc.devRef .tc main_arg8) = a
  rfl

set_option maxHeartbeats 2000000 in
theorem s3_agg : (StableHlo.after hostOps3 X (Proc.devRef .tc main_v62) : FV S100000x128)
    = aggK (X (Proc.devRef .tc main_v52)) (X (Proc.devRef .tc main_arg1)) (X (Proc.devRef .tc main_arg2)) := by
  after_results_simp
  generalize X (Proc.devRef .tc main_v52) = a0
  generalize X (Proc.devRef .tc main_arg1) = a1
  generalize X (Proc.devRef .tc main_arg2) = a2
  rfl

set_option maxHeartbeats 2000000 in
theorem s3_bias : (StableHlo.after hostOps3 X (Proc.devRef .tc main_v64) : FV S1x128) = biasRow (X (Proc.devRef .tc main_arg10)) := by
  after_results_simp
  generalize X (Proc.devRef .tc main_arg10) = a
  rfl

set_option maxHeartbeats 2000000 in
theorem s3_col : (StableHlo.after hostOps3 X (Proc.devRef .tc main_v63) : FV S100000x1) = factorCol (X (Proc.devRef .tc main_v10)) := by
  after_results_simp
  generalize X (Proc.devRef .tc main_v10) = a
  rfl

/-- The mean of the pooled sums through the first dense layer of the head, before its clip. -/
def head1 (P : FV S160x128) (w1 : FV S128x128) (b1 : FV S128) : FV S1x128 :=
  addf (F := Ideal) (φ := .f32)
    (Host.dotGeneral (F := Ideal) (φ₁ := .f32) (φ₂ := .f32) dot_S1x128_S128x128_S1x128_1_0_0_1_n_n none
      (Host.divf (F := Ideal) (φ := .f32)
        (broadcastInDim S1x128 ![1] bcast_S128_S1x128_1
          (Host.reduceAdd (F := Ideal) (φ := .f32) P (constant (F := Ideal) S_ .f32 0x00000000#32) reducesTo_S160x128_S128_d0 h_S_))
        (broadcastInDim S1x128 ![] bcast_S_S1x128 (constant (F := Ideal) S_ .f32 0x47C35000#32)))
      w1)
    (broadcastInDim S1x128 ![1] bcast_S128_S1x128_1 b1)

/-- A clip of a [1, 128] row at zero. -/
def relu1 (g : FV S1x128) : FV S1x128 :=
  maximumf (F := Ideal) (φ := .f32) g (broadcastInDim S1x128 ![] bcast_S_S1x128 (constant (F := Ideal) S_ .f32 0x00000000#32))

/-- A dense layer on a [1, 128] row. -/
def dense1 (g : FV S1x128) (w : FV S128x128) (b : FV S128) : FV S1x128 :=
  addf (F := Ideal) (φ := .f32) (Host.dotGeneral (F := Ideal) (φ₁ := .f32) (φ₂ := .f32) dot_S1x128_S128x128_S1x128_1_0_0_1_n_n none g w)
    (broadcastInDim S1x128 ![1] bcast_S128_S1x128_1 b)

/-- The output layer on a [1, 128] row. -/
def denseOut (g : FV S1x128) (wo : FV S128x1) (bo : FV S1) : FV S1x1 :=
  addf (F := Ideal) (φ := .f32) (Host.dotGeneral (F := Ideal) (φ₁ := .f32) (φ₂ := .f32) dot_S1x128_S128x1_S1x1_1_0_0_1_n_n none g wo)
    (broadcastInDim S1x1 ![1] bcast_S1_S1x1_1 bo)

theorem tailK_eq (P : FV S160x128) (w1 : FV S128x128) (b1 : FV S128) (w2 : FV S128x128) (b2 : FV S128) (wo : FV S128x1)
    (bo : FV S1) : tailK P w1 b1 w2 b2 wo bo = denseOut (relu1 (dense1 (relu1 (head1 P w1 b1)) w2 b2)) wo bo := rfl

set_option maxHeartbeats 2000000 in
theorem s4_v72 : (StableHlo.after hostOps4 X (Proc.devRef .tc main_v72) : FV S1x128)
    = head1 (X (Proc.devRef .tc main_v65)) (X (Proc.devRef .tc main_arg11)) (X (Proc.devRef .tc main_arg12)) := by
  after_results_simp
  generalize X (Proc.devRef .tc main_v65) = p
  generalize X (Proc.devRef .tc main_arg11) = a11
  generalize X (Proc.devRef .tc main_arg12) = a12
  rfl

set_option maxHeartbeats 2000000 in
theorem s41_v73 : (StableHlo.after hostOps4_1 X (Proc.devRef .tc main_v73) : FV S1x128) = relu1 (X (Proc.devRef .tc main_v72)) := by
  after_results_simp
  generalize X (Proc.devRef .tc main_v72) = a
  rfl

set_option maxHeartbeats 2000000 in
theorem s42_v76 : (StableHlo.after hostOps4_2 X (Proc.devRef .tc main_v76) : FV S1x128)
    = dense1 (X (Proc.devRef .tc main_v73)) (X (Proc.devRef .tc main_arg13)) (X (Proc.devRef .tc main_arg14)) := by
  after_results_simp
  generalize X (Proc.devRef .tc main_v73) = a
  generalize X (Proc.devRef .tc main_arg13) = a13
  generalize X (Proc.devRef .tc main_arg14) = a14
  rfl

set_option maxHeartbeats 2000000 in
theorem s43_v77 : (StableHlo.after hostOps4_3 X (Proc.devRef .tc main_v77) : FV S1x128) = relu1 (X (Proc.devRef .tc main_v76)) := by
  after_results_simp
  generalize X (Proc.devRef .tc main_v76) = a
  rfl

set_option maxHeartbeats 2000000 in
theorem s44_v80 : (StableHlo.after hostOps4_4 X (Proc.devRef .tc main_v80) : FV S1x1)
    = denseOut (X (Proc.devRef .tc main_v77)) (X (Proc.devRef .tc main_arg15)) (X (Proc.devRef .tc main_arg16)) := by
  after_results_simp
  generalize X (Proc.devRef .tc main_v77) = a
  generalize X (Proc.devRef .tc main_arg15) = a15
  generalize X (Proc.devRef .tc main_arg16) = a16
  rfl

/-! ## Buffers a stretch leaves alone -/

/-- The buffers the operations of `hostOps0` write. -/
def written_hostOps0 : List (Ref sig .tc) := [main_cst, main_v0, main_cst_0, main_v1, main_v2, main_v3, main_cst_1, main_v4, main_v5, main_v6, main_cst_2]
theorem wsub_hostOps0 : (hostOps0 : List (HloOp τ sig (Elt Ideal))).Forall fun op => op.writes ⊆ ((written_hostOps0).map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps0` does not write keeps its contents. -/
theorem kept_hostOps0 (X : Valuation τ sig (Elt Ideal)) (r : Ref sig .tc) (hr : r ∉ written_hostOps0) :
    StableHlo.after hostOps0 X (Proc.devRef .tc r) = X (Proc.devRef .tc r) :=
  StableHlo.after_of_writes_sub hostOps0 X wsub_hostOps0 hr

/-- The buffers the operations of `hostOps0_1` write. -/
def written_hostOps0_1 : List (Ref sig .tc) := [main_call0_v0, main_call0_v1, main_v7]
theorem wsub_hostOps0_1 : (hostOps0_1 : List (HloOp τ sig (Elt Ideal))).Forall fun op => op.writes ⊆ ((written_hostOps0_1).map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps0_1` does not write keeps its contents. -/
theorem kept_hostOps0_1 (X : Valuation τ sig (Elt Ideal)) (r : Ref sig .tc) (hr : r ∉ written_hostOps0_1) :
    StableHlo.after hostOps0_1 X (Proc.devRef .tc r) = X (Proc.devRef .tc r) :=
  StableHlo.after_of_writes_sub hostOps0_1 X wsub_hostOps0_1 hr

/-- The buffers the operations of `hostOps0_2` write. -/
def written_hostOps0_2 : List (Ref sig .tc) := [main_v8, main_cst_3]
theorem wsub_hostOps0_2 : (hostOps0_2 : List (HloOp τ sig (Elt Ideal))).Forall fun op => op.writes ⊆ ((written_hostOps0_2).map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps0_2` does not write keeps its contents. -/
theorem kept_hostOps0_2 (X : Valuation τ sig (Elt Ideal)) (r : Ref sig .tc) (hr : r ∉ written_hostOps0_2) :
    StableHlo.after hostOps0_2 X (Proc.devRef .tc r) = X (Proc.devRef .tc r) :=
  StableHlo.after_of_writes_sub hostOps0_2 X wsub_hostOps0_2 hr

/-- The buffers the operations of `hostOps0_3` write. -/
def written_hostOps0_3 : List (Ref sig .tc) := [main_call1_v0, main_call1_v1, main_v9]
theorem wsub_hostOps0_3 : (hostOps0_3 : List (HloOp τ sig (Elt Ideal))).Forall fun op => op.writes ⊆ ((written_hostOps0_3).map (Proc.devRef (τ := τ) .tc)).toFinset := by
  simp only [hostOps0_3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps0_3` does not write keeps its contents. -/
theorem kept_hostOps0_3 (X : Valuation τ sig (Elt Ideal)) (r : Ref sig .tc) (hr : r ∉ written_hostOps0_3) :
    StableHlo.after hostOps0_3 X (Proc.devRef .tc r) = X (Proc.devRef .tc r) :=
  StableHlo.after_of_writes_sub hostOps0_3 X wsub_hostOps0_3 hr

/-- The buffers the operations of `hostOps0_4` write. -/
def written_hostOps0_4 : List (Ref sig .tc) := [main_v10, main_v11, main_v12, main_v13, main_v14, main_v15, main_v16, main_c, main_v17, main_v18, main_c_4, main_v19, main_v20, main_v21, main_v22, main_v23, main_cst_5, main_v24, main_v25, main_v26, main_v27]
theorem wsub_hostOps0_4 : (hostOps0_4 : List (HloOp τ sig (Elt Ideal))).Forall fun op => op.writes ⊆ ((written_hostOps0_4).map (Proc.devRef (τ := τ) .tc)).toFinset := by
  simp only [hostOps0_4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps0_4` does not write keeps its contents. -/
theorem kept_hostOps0_4 (X : Valuation τ sig (Elt Ideal)) (r : Ref sig .tc) (hr : r ∉ written_hostOps0_4) :
    StableHlo.after hostOps0_4 X (Proc.devRef .tc r) = X (Proc.devRef .tc r) :=
  StableHlo.after_of_writes_sub hostOps0_4 X wsub_hostOps0_4 hr

/-- The buffers the operations of `hostOps1` write. -/
def written_hostOps1 : List (Ref sig .tc) := [main_c_6, main_v29, main_v30, main_c_7, main_v31, main_v32, main_v33, main_v34, main_v35, main_cst_8, main_v36, main_v37, main_v38, main_v39]
theorem wsub_hostOps1 : (hostOps1 : List (HloOp τ sig (Elt Ideal))).Forall fun op => op.writes ⊆ ((written_hostOps1).map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps1` does not write keeps its contents. -/
theorem kept_hostOps1 (X : Valuation τ sig (Elt Ideal)) (r : Ref sig .tc) (hr : r ∉ written_hostOps1) :
    StableHlo.after hostOps1 X (Proc.devRef .tc r) = X (Proc.devRef .tc r) :=
  StableHlo.after_of_writes_sub hostOps1 X wsub_hostOps1 hr

/-- The buffers the operations of `hostOps2` write. -/
def written_hostOps2 : List (Ref sig .tc) := [main_c_9, main_v41, main_v42, main_c_10, main_v43, main_v44, main_v45, main_v46, main_v47, main_cst_11, main_v48, main_v49, main_v50, main_v51]
theorem wsub_hostOps2 : (hostOps2 : List (HloOp τ sig (Elt Ideal))).Forall fun op => op.writes ⊆ ((written_hostOps2).map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps2` does not write keeps its contents. -/
theorem kept_hostOps2 (X : Valuation τ sig (Elt Ideal)) (r : Ref sig .tc) (hr : r ∉ written_hostOps2) :
    StableHlo.after hostOps2 X (Proc.devRef .tc r) = X (Proc.devRef .tc r) :=
  StableHlo.after_of_writes_sub hostOps2 X wsub_hostOps2 hr

/-- The buffers the operations of `hostOps3` write. -/
def written_hostOps3 : List (Ref sig .tc) := [main_c_12, main_v53, main_v54, main_c_13, main_v55, main_v56, main_v57, main_v58, main_v59, main_cst_14, main_v60, main_v61, main_v62, main_v63, main_v64]
theorem wsub_hostOps3 : (hostOps3 : List (HloOp τ sig (Elt Ideal))).Forall fun op => op.writes ⊆ ((written_hostOps3).map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps3` does not write keeps its contents. -/
theorem kept_hostOps3 (X : Valuation τ sig (Elt Ideal)) (r : Ref sig .tc) (hr : r ∉ written_hostOps3) :
    StableHlo.after hostOps3 X (Proc.devRef .tc r) = X (Proc.devRef .tc r) :=
  StableHlo.after_of_writes_sub hostOps3 X wsub_hostOps3 hr

/-- The buffers the operations of `hostOps4` write. -/
def written_hostOps4 : List (Ref sig .tc) := [main_cst_15, main_v66, main_v67, main_cst_16, main_v68, main_v69, main_v70, main_v71, main_v72]
theorem wsub_hostOps4 : (hostOps4 : List (HloOp τ sig (Elt Ideal))).Forall fun op => op.writes ⊆ ((written_hostOps4).map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps4` does not write keeps its contents. -/
theorem kept_hostOps4 (X : Valuation τ sig (Elt Ideal)) (r : Ref sig .tc) (hr : r ∉ written_hostOps4) :
    StableHlo.after hostOps4 X (Proc.devRef .tc r) = X (Proc.devRef .tc r) :=
  StableHlo.after_of_writes_sub hostOps4 X wsub_hostOps4 hr

/-- The buffers the operations of `hostOps4_1` write. -/
def written_hostOps4_1 : List (Ref sig .tc) := [main_call2_cst, main_call2_v0, main_v73]
theorem wsub_hostOps4_1 : (hostOps4_1 : List (HloOp τ sig (Elt Ideal))).Forall fun op => op.writes ⊆ ((written_hostOps4_1).map (Proc.devRef (τ := τ) .tc)).toFinset := by
  simp only [hostOps4_1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps4_1` does not write keeps its contents. -/
theorem kept_hostOps4_1 (X : Valuation τ sig (Elt Ideal)) (r : Ref sig .tc) (hr : r ∉ written_hostOps4_1) :
    StableHlo.after hostOps4_1 X (Proc.devRef .tc r) = X (Proc.devRef .tc r) :=
  StableHlo.after_of_writes_sub hostOps4_1 X wsub_hostOps4_1 hr

/-- The buffers the operations of `hostOps4_2` write. -/
def written_hostOps4_2 : List (Ref sig .tc) := [main_v74, main_v75, main_v76]
theorem wsub_hostOps4_2 : (hostOps4_2 : List (HloOp τ sig (Elt Ideal))).Forall fun op => op.writes ⊆ ((written_hostOps4_2).map (Proc.devRef (τ := τ) .tc)).toFinset := by
  simp only [hostOps4_2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps4_2` does not write keeps its contents. -/
theorem kept_hostOps4_2 (X : Valuation τ sig (Elt Ideal)) (r : Ref sig .tc) (hr : r ∉ written_hostOps4_2) :
    StableHlo.after hostOps4_2 X (Proc.devRef .tc r) = X (Proc.devRef .tc r) :=
  StableHlo.after_of_writes_sub hostOps4_2 X wsub_hostOps4_2 hr

/-- The buffers the operations of `hostOps4_3` write. -/
def written_hostOps4_3 : List (Ref sig .tc) := [main_call3_cst, main_call3_v0, main_v77]
theorem wsub_hostOps4_3 : (hostOps4_3 : List (HloOp τ sig (Elt Ideal))).Forall fun op => op.writes ⊆ ((written_hostOps4_3).map (Proc.devRef (τ := τ) .tc)).toFinset := by
  simp only [hostOps4_3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps4_3` does not write keeps its contents. -/
theorem kept_hostOps4_3 (X : Valuation τ sig (Elt Ideal)) (r : Ref sig .tc) (hr : r ∉ written_hostOps4_3) :
    StableHlo.after hostOps4_3 X (Proc.devRef .tc r) = X (Proc.devRef .tc r) :=
  StableHlo.after_of_writes_sub hostOps4_3 X wsub_hostOps4_3 hr

/-- The buffers the operations of `hostOps4_4` write. -/
def written_hostOps4_4 : List (Ref sig .tc) := [main_v78, main_v79, main_v80]
theorem wsub_hostOps4_4 : (hostOps4_4 : List (HloOp τ sig (Elt Ideal))).Forall fun op => op.writes ⊆ ((written_hostOps4_4).map (Proc.devRef (τ := τ) .tc)).toFinset := by
  simp only [hostOps4_4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩
/-- A buffer `hostOps4_4` does not write keeps its contents. -/
theorem kept_hostOps4_4 (X : Valuation τ sig (Elt Ideal)) (r : Ref sig .tc) (hr : r ∉ written_hostOps4_4) :
    StableHlo.after hostOps4_4 X (Proc.devRef .tc r) = X (Proc.devRef .tc r) :=
  StableHlo.after_of_writes_sub hostOps4_4 X wsub_hostOps4_4 hr

end Cert.KernelIdeal.Host

end
-- ==== Proof.LibColumnCast.lean ====
/-
  A vector and a one-column matrix hold the same entries: the shape casts between [a] and [a, 1], read at an index.
  (The casts a row sum kept as a column meets: the sum is taken as a vector, stored as a column, and read back as a vector.)
-/
import Idealize.ShloMosaic.Lib.ValueLayout
import Idealize.ShloMosaic.Lib.Pipeline.Value

namespace Cert.LibColumnCast

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.KernelValue.lean ====
/-
  The idealized kernel's result as one function of its seventeen arguments.

  Writing `iso`, `isi` for the out- and in-degree factors, the program computes: the first aggregation of the pre-scaled
  input; three scaled dense layers, each followed by an aggregation; the blockwise column sums of the fourth dense layer;
  and the closing head. Also here: how the factor table's columns, a reshaped bias row and the factor column read at an
  index — the table's column 0 is the in-degree factor and column 1 the out-degree factor, a bias row's entry (0, q) is the
  bias's entry q, the factor column's entry (p, 0) is the factor's entry p.
-/
import proofs.«122499_j17145509445914_2_alg».proof.Proof.HostStretch
import proofs.«122499_j17145509445914_2_alg».proof.Proof.Spec
import proofs.«122499_j17145509445914_2_alg».proof.Proof.LibColumnCast
import Idealize.ShloMosaic.Lib.ValueLayout
import Idealize.ShloMosaic.Lib.Pipeline.Value

set_option maxRecDepth 16384

noncomputable section

namespace Cert.KernelIdeal.Value

open Cert.KernelIdeal Cert.KernelIdeal.Gen Cert.KernelIdeal.Host Idealize.ShloMosaic Idealize.ShloMosaic.ValueIdx

/-! ## Layout operations read at an index -/

theorem invs_col0 (isi iso : FV S100000) :
    (fun p : Fin 100000 => invsTable isi iso (ix2 p (0 : Fin 2))) = fun p => isi (ix1 p) := by
  funext p
  unfold invsTable
  refine (concatenate_pair_apply_left (t := S100000x2) (s₁ := S100000x1) (s₂ := S100000x1) (1 : Fin 2)
    (broadcastInDim S100000x1 ![0] bcast_S100000_S100000x1_0 isi) (broadcastInDim S100000x1 ![0] bcast_S100000_S100000x1_0 iso)
    concatenates_S100000x1_S100000x1_S100000x2_d1 (ix2 p (0 : Fin 2)) rfl
    (ix2 p (0 : Fin 1)) (fun b => by match b with | ⟨0, _⟩ => rfl | ⟨1, _⟩ => rfl)).trans ?_
  exact broadcastInDim_apply _ bcast_S100000_S100000x1_0 isi (ix2 p (0 : Fin 1)) (ix1 p) (fun a => match a with
    | ⟨0, _⟩ => by show p.val = if (100000 : Nat) = 1 then 0 else p.val; rw [if_neg (by decide)])

theorem invs_col1 (isi iso : FV S100000) :
    (fun p : Fin 100000 => invsTable isi iso (ix2 p (1 : Fin 2))) = fun p => iso (ix1 p) := by
  funext p
  unfold invsTable
  refine (concatenate_pair_apply_right (t := S100000x2) (s₁ := S100000x1) (s₂ := S100000x1) (1 : Fin 2)
    (broadcastInDim S100000x1 ![0] bcast_S100000_S100000x1_0 isi) (broadcastInDim S100000x1 ![0] bcast_S100000_S100000x1_0 iso)
    concatenates_S100000x1_S100000x1_S100000x2_d1 (ix2 p (1 : Fin 2)) rfl rfl
    (ix2 p (0 : Fin 1)) (fun b hb => by
      match b with
      | ⟨0, _⟩ => rfl
      | ⟨1, _⟩ => exact absurd rfl hb) rfl).trans ?_
  exact broadcastInDim_apply _ bcast_S100000_S100000x1_0 iso (ix2 p (0 : Fin 1)) (ix1 p) (fun a => match a with
    | ⟨0, _⟩ => by show p.val = if (100000 : Nat) = 1 then 0 else p.val; rw [if_neg (by decide)])

theorem biasRow_row (b : FV S128) : (fun q : Fin 128 => biasRow b (ix2 (0 : Fin 1) q)) = fun q => b (ix1 q) := by
  funext q
  exact shapeCast_a_1a_apply b shapeCasts_S128_S1x128 (0 : Fin 1) q

theorem factorCol_col (v : FV S100000) : (fun p : Fin 100000 => factorCol v (ix2 p (0 : Fin 1))) = fun p => v (ix1 p) := by
  funext p
  exact Cert.LibColumnCast.shapeCast_a_a1_apply v shapeCasts_S100000_S100000x1 p (0 : Fin 1)

/-! ## The closed form -/

/-- One scaled dense layer on aggregated features, with the degree factors of the edge vectors `x1` (sources) and `x2`
    (destinations). -/
def layer (agg : FV S100000x128) (W : FV S128x128) (b : FV S128) (x1 x2 : IV S1600000) : FV S100000x128 :=
  GCN.layerScaled agg W (fun p => degInv x2 (ix1 p)) (fun p => degInv x1 (ix1 p)) (fun q => b (ix1 q))

def agg1 (x0 : FV S100000x128) (x1 x2 : IV S1600000) : FV S100000x128 := aggK (prescale x0 (degInv x1)) x1 x2
def h1 (x0 : FV S100000x128) (x1 x2 : IV S1600000) (x3 : FV S128x128) (x4 : FV S128) : FV S100000x128 :=
  layer (agg1 x0 x1 x2) x3 x4 x1 x2
def h2 (x0 : FV S100000x128) (x1 x2 : IV S1600000) (x3 : FV S128x128) (x4 : FV S128) (x5 : FV S128x128) (x6 : FV S128) :
    FV S100000x128 :=
  layer (aggK (h1 x0 x1 x2 x3 x4) x1 x2) x5 x6 x1 x2
def h3 (x0 : FV S100000x128) (x1 x2 : IV S1600000) (x3 : FV S128x128) (x4 : FV S128) (x5 : FV S128x128) (x6 : FV S128)
    (x7 : FV S128x128) (x8 : FV S128) : FV S100000x128 :=
  layer (aggK (h2 x0 x1 x2 x3 x4 x5 x6) x1 x2) x7 x8 x1 x2
def pooled (x0 : FV S100000x128) (x1 x2 : IV S1600000) (x3 : FV S128x128) (x4 : FV S128) (x5 : FV S128x128) (x6 : FV S128)
    (x7 : FV S128x128) (x8 : FV S128) (x9 : FV S128x128) (x10 : FV S128) : FV S160x128 :=
  GCN.pooledBlocks (aggK (h3 x0 x1 x2 x3 x4 x5 x6 x7 x8) x1 x2) x9 (fun p => degInv x2 (ix1 p)) (fun q => x10 (ix1 q))
def result (x0 : FV S100000x128) (x1 x2 : IV S1600000) (x3 : FV S128x128) (x4 : FV S128) (x5 : FV S128x128) (x6 : FV S128)
    (x7 : FV S128x128) (x8 : FV S128) (x9 : FV S128x128) (x10 : FV S128) (x11 : FV S128x128) (x12 : FV S128)
    (x13 : FV S128x128) (x14 : FV S128) (x15 : FV S128x1) (x16 : FV S1) : FV S1x1 :=
  tailK (pooled x0 x1 x2 x3 x4 x5 x6 x7 x8 x9 x10) x11 x12 x13 x14 x15 x16

end Cert.KernelIdeal.Value

end
-- ==== Proof.KernelLevels.lean ====
/-
  The kernel program's buffers, boundary by boundary.

  Following the program from the launch memory: the host stretches before the first launch leave the degree factors, the
  factor table, the first aggregation and the first bias row; each scaled-transform launch leaves the scaled dense layer
  of the arrays it found (read through the factor table's two columns and the bias row); the stretch after it aggregates
  that layer and reshapes the next bias; the pooling launch leaves the blockwise column sums; the closing stretches apply
  the head. Buffers that a stretch does not write and a launch does not own pass through unchanged. Put together, the
  result buffer holds the closed form `Value.result` of the seventeen argument arrays as launched.
-/
import proofs.«122499_j17145509445914_2_alg».proof.Proof.Gen.KernelIdeal.Frame
import proofs.«122499_j17145509445914_2_alg».proof.Proof.Region0
import proofs.«122499_j17145509445914_2_alg».proof.Proof.Region1
import proofs.«122499_j17145509445914_2_alg».proof.Proof.Region2
import proofs.«122499_j17145509445914_2_alg».proof.Proof.Region3
import proofs.«122499_j17145509445914_2_alg».proof.Proof.KernelValue

set_option maxRecDepth 16384

noncomputable section

namespace Cert.KernelIdeal.Levels

open Cert.KernelIdeal Cert.KernelIdeal.Gen Cert.KernelIdeal.Host Cert.KernelIdeal.Value Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-! ## Before the first launch -/

theorem w1_v3 : (W1 m ρ c (Proc.devRef .tc main_v3) : FV S100000) = degCount (W0 m ρ c (Proc.devRef .tc main_arg1)) := s0_v3 (W0 m ρ c)
theorem w1_v6 : (W1 m ρ c (Proc.devRef .tc main_v6) : FV S100000) = degCount (W0 m ρ c (Proc.devRef .tc main_arg2)) := s0_v6 (W0 m ρ c)
theorem w1_cst2 : (W1 m ρ c (Proc.devRef .tc main_cst_2) : FV S_) = constant (F := Ideal) S_ .f32 0x3F800000#32 := s0_cst2 (W0 m ρ c)

theorem w2_v7 : (W2 m ρ c (Proc.devRef .tc main_v7) : FV S100000) = clipBelow (constant (F := Ideal) S_ .f32 0x3F800000#32) (degCount (W0 m ρ c (Proc.devRef .tc main_arg1))) :=
  (s01_v7 (W1 m ρ c)).trans (by rw [w1_cst2, w1_v3])

theorem w3_v8 : (W3 m ρ c (Proc.devRef .tc main_v8) : FV S100000) = degInv (W0 m ρ c (Proc.devRef .tc main_arg1)) :=
  (s02_v8 (W2 m ρ c)).trans (by rw [w2_v7, degInv_eq])
theorem w3_cst3 : (W3 m ρ c (Proc.devRef .tc main_cst_3) : FV S_) = constant (F := Ideal) S_ .f32 0x3F800000#32 := s02_cst3 (W2 m ρ c)
theorem w3_v6 : (W3 m ρ c (Proc.devRef .tc main_v6) : FV S100000) = degCount (W0 m ρ c (Proc.devRef .tc main_arg2)) :=
  (show W3 m ρ c (Proc.devRef .tc main_v6) = W1 m ρ c (Proc.devRef .tc main_v6) from ((kept_hostOps0_2 (W2 m ρ c) main_v6 (by decide)).trans (kept_hostOps0_1 (W1 m ρ c) main_v6 (by decide)))).trans (w1_v6 m ρ c)

theorem w4_v9 : (W4 m ρ c (Proc.devRef .tc main_v9) : FV S100000) = clipBelow (constant (F := Ideal) S_ .f32 0x3F800000#32) (degCount (W0 m ρ c (Proc.devRef .tc main_arg2))) :=
  (s03_v9 (W3 m ρ c)).trans (by rw [w3_cst3, w3_v6])
theorem w4_v8 : (W4 m ρ c (Proc.devRef .tc main_v8) : FV S100000) = degInv (W0 m ρ c (Proc.devRef .tc main_arg1)) :=
  (show W4 m ρ c (Proc.devRef .tc main_v8) = W3 m ρ c (Proc.devRef .tc main_v8) from (kept_hostOps0_3 (W3 m ρ c) main_v8 (by decide))).trans (w3_v8 m ρ c)

theorem w5_v10 : (W5 m ρ c (Proc.devRef .tc main_v10) : FV S100000) = degInv (W0 m ρ c (Proc.devRef .tc main_arg2)) :=
  (s04_v10 (W4 m ρ c)).trans (by rw [w4_v9, degInv_eq])
theorem w5_v13 : (W5 m ρ c (Proc.devRef .tc main_v13) : FV S100000x2) = invsTable (degInv (W0 m ρ c (Proc.devRef .tc main_arg2))) (degInv (W0 m ρ c (Proc.devRef .tc main_arg1))) :=
  (s04_v13 (W4 m ρ c)).trans (by rw [w4_v9, w4_v8, ← degInv_eq])
theorem w5_v26 : (W5 m ρ c (Proc.devRef .tc main_v26) : FV S100000x128) = agg1 (W0 m ρ c (Proc.devRef .tc main_arg0)) (W0 m ρ c (Proc.devRef .tc main_arg1)) (W0 m ρ c (Proc.devRef .tc main_arg2)) :=
  (s04_v26 (W4 m ρ c)).trans (by
    rw [w4_v8, (show W4 m ρ c (Proc.devRef .tc main_arg0) = W0 m ρ c (Proc.devRef .tc main_arg0) from ((kept_hostOps0_3 (W3 m ρ c) main_arg0 (by decide)).trans ((kept_hostOps0_2 (W2 m ρ c) main_arg0 (by decide)).trans ((kept_hostOps0_1 (W1 m ρ c) main_arg0 (by decide)).trans (kept_hostOps0 (W0 m ρ c) main_arg0 (by decide)))))), (show W4 m ρ c (Proc.devRef .tc main_arg1) = W0 m ρ c (Proc.devRef .tc main_arg1) from ((kept_hostOps0_3 (W3 m ρ c) main_arg1 (by decide)).trans ((kept_hostOps0_2 (W2 m ρ c) main_arg1 (by decide)).trans ((kept_hostOps0_1 (W1 m ρ c) main_arg1 (by decide)).trans (kept_hostOps0 (W0 m ρ c) main_arg1 (by decide)))))), (show W4 m ρ c (Proc.devRef .tc main_arg2) = W0 m ρ c (Proc.devRef .tc main_arg2) from ((kept_hostOps0_3 (W3 m ρ c) main_arg2 (by decide)).trans ((kept_hostOps0_2 (W2 m ρ c) main_arg2 (by decide)).trans ((kept_hostOps0_1 (W1 m ρ c) main_arg2 (by decide)).trans (kept_hostOps0 (W0 m ρ c) main_arg2 (by decide))))))]
    rfl)
theorem w5_v27 : (W5 m ρ c (Proc.devRef .tc main_v27) : FV S1x128) = biasRow (W0 m ρ c (Proc.devRef .tc main_arg4)) :=
  (s04_v27 (W4 m ρ c)).trans (by rw [(show W4 m ρ c (Proc.devRef .tc main_arg4) = W0 m ρ c (Proc.devRef .tc main_arg4) from ((kept_hostOps0_3 (W3 m ρ c) main_arg4 (by decide)).trans ((kept_hostOps0_2 (W2 m ρ c) main_arg4 (by decide)).trans ((kept_hostOps0_1 (W1 m ρ c) main_arg4 (by decide)).trans (kept_hostOps0 (W0 m ρ c) main_arg4 (by decide))))))])

/-! ## The factor table and the in-degree factor pass through the launches that only read them -/

theorem w6_v13 : W6 m ρ c (Proc.devRef .tc main_v13) = W5 m ρ c (Proc.devRef .tc main_v13) :=
  (W6_arr m ρ c 1).trans (((dat0 (V5 m ρ) c).arrAt_in 1 rfl _).trans (A_eq0 (V5 m ρ) c 1))
theorem w7_v13 : (W7 m ρ c (Proc.devRef .tc main_v13) : FV S100000x2) = invsTable (degInv (W0 m ρ c (Proc.devRef .tc main_arg2))) (degInv (W0 m ρ c (Proc.devRef .tc main_arg1))) :=
  (show W7 m ρ c (Proc.devRef .tc main_v13) = W6 m ρ c (Proc.devRef .tc main_v13) from (kept_hostOps1 (W6 m ρ c) main_v13 (by decide))).trans ((w6_v13 m ρ c).trans (w5_v13 m ρ c))
theorem w8_v13 : W8 m ρ c (Proc.devRef .tc main_v13) = W7 m ρ c (Proc.devRef .tc main_v13) :=
  (W8_arr m ρ c 1).trans (((dat1 (V7 m ρ) c).arrAt_in 1 rfl _).trans (A_eq1 (V7 m ρ) c 1))
theorem w9_v13 : (W9 m ρ c (Proc.devRef .tc main_v13) : FV S100000x2) = invsTable (degInv (W0 m ρ c (Proc.devRef .tc main_arg2))) (degInv (W0 m ρ c (Proc.devRef .tc main_arg1))) :=
  (show W9 m ρ c (Proc.devRef .tc main_v13) = W8 m ρ c (Proc.devRef .tc main_v13) from (kept_hostOps2 (W8 m ρ c) main_v13 (by decide))).trans ((w8_v13 m ρ c).trans (w7_v13 m ρ c))
theorem w10_v10 : (W10 m ρ c (Proc.devRef .tc main_v10) : FV S100000) = degInv (W0 m ρ c (Proc.devRef .tc main_arg2)) :=
  (show W10 m ρ c (Proc.devRef .tc main_v10) = W5 m ρ c (Proc.devRef .tc main_v10) from ((W10_of_ne m ρ c main_v10 (by decide)).trans ((kept_hostOps2 (W8 m ρ c) main_v10 (by decide)).trans ((W8_of_ne m ρ c main_v10 (by decide)).trans ((kept_hostOps1 (W6 m ρ c) main_v10 (by decide)).trans (W6_of_ne m ρ c main_v10 (by decide))))))).trans (w5_v10 m ρ c)

/-! ## The launches and the stretches between them -/

theorem w6_v28 : (W6 m ρ c (Proc.devRef .tc main_v28) : FV S100000x128) = h1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) := by
  refine (W6_arr m ρ c 4).trans ((Region0.array (V5 m ρ) c).trans ?_)
  show GCN.layerScaled (W5 m ρ c (Proc.devRef .tc main_v26)) (W5 m ρ c (Proc.devRef .tc main_arg3))
      (fun p => W5 m ρ c (Proc.devRef .tc main_v13) (ix2 p (0 : Fin 2))) (fun p => W5 m ρ c (Proc.devRef .tc main_v13) (ix2 p (1 : Fin 2)))
      (fun q => W5 m ρ c (Proc.devRef .tc main_v27) (ix2 (0 : Fin 1) q)) = _
  rw [w5_v26 m ρ c, w5_v13 m ρ c, w5_v27 m ρ c, (show W5 m ρ c (Proc.devRef .tc main_arg3) = W0 m ρ c (Proc.devRef .tc main_arg3) from ((kept_hostOps0_4 (W4 m ρ c) main_arg3 (by decide)).trans ((kept_hostOps0_3 (W3 m ρ c) main_arg3 (by decide)).trans ((kept_hostOps0_2 (W2 m ρ c) main_arg3 (by decide)).trans ((kept_hostOps0_1 (W1 m ρ c) main_arg3 (by decide)).trans (kept_hostOps0 (W0 m ρ c) main_arg3 (by decide)))))))]
  rw [invs_col0, invs_col1, biasRow_row]
  rfl

theorem w7_v38 : (W7 m ρ c (Proc.devRef .tc main_v38) : FV S100000x128) = aggK (h1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg1)) (W0 m ρ c (Proc.devRef .tc main_arg2)) :=
  (s1_agg (W6 m ρ c)).trans (by rw [w6_v28, (show W6 m ρ c (Proc.devRef .tc main_arg1) = W0 m ρ c (Proc.devRef .tc main_arg1) from ((W6_of_ne m ρ c main_arg1 (by decide)).trans ((kept_hostOps0_4 (W4 m ρ c) main_arg1 (by decide)).trans ((kept_hostOps0_3 (W3 m ρ c) main_arg1 (by decide)).trans ((kept_hostOps0_2 (W2 m ρ c) main_arg1 (by decide)).trans ((kept_hostOps0_1 (W1 m ρ c) main_arg1 (by decide)).trans (kept_hostOps0 (W0 m ρ c) main_arg1 (by decide)))))))), (show W6 m ρ c (Proc.devRef .tc main_arg2) = W0 m ρ c (Proc.devRef .tc main_arg2) from ((W6_of_ne m ρ c main_arg2 (by decide)).trans ((kept_hostOps0_4 (W4 m ρ c) main_arg2 (by decide)).trans ((kept_hostOps0_3 (W3 m ρ c) main_arg2 (by decide)).trans ((kept_hostOps0_2 (W2 m ρ c) main_arg2 (by decide)).trans ((kept_hostOps0_1 (W1 m ρ c) main_arg2 (by decide)).trans (kept_hostOps0 (W0 m ρ c) main_arg2 (by decide))))))))])
theorem w7_v39 : (W7 m ρ c (Proc.devRef .tc main_v39) : FV S1x128) = biasRow (W0 m ρ c (Proc.devRef .tc main_arg6)) :=
  (s1_bias (W6 m ρ c)).trans (by rw [(show W6 m ρ c (Proc.devRef .tc main_arg6) = W0 m ρ c (Proc.devRef .tc main_arg6) from ((W6_of_ne m ρ c main_arg6 (by decide)).trans ((kept_hostOps0_4 (W4 m ρ c) main_arg6 (by decide)).trans ((kept_hostOps0_3 (W3 m ρ c) main_arg6 (by decide)).trans ((kept_hostOps0_2 (W2 m ρ c) main_arg6 (by decide)).trans ((kept_hostOps0_1 (W1 m ρ c) main_arg6 (by decide)).trans (kept_hostOps0 (W0 m ρ c) main_arg6 (by decide))))))))])

theorem w8_v40 : (W8 m ρ c (Proc.devRef .tc main_v40) : FV S100000x128) = h2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) := by
  refine (W8_arr m ρ c 4).trans ((Region1.array (V7 m ρ) c).trans ?_)
  show GCN.layerScaled (W7 m ρ c (Proc.devRef .tc main_v38)) (W7 m ρ c (Proc.devRef .tc main_arg5))
      (fun p => W7 m ρ c (Proc.devRef .tc main_v13) (ix2 p (0 : Fin 2))) (fun p => W7 m ρ c (Proc.devRef .tc main_v13) (ix2 p (1 : Fin 2)))
      (fun q => W7 m ρ c (Proc.devRef .tc main_v39) (ix2 (0 : Fin 1) q)) = _
  rw [w7_v38 m ρ c, w7_v13 m ρ c, w7_v39 m ρ c, (show W7 m ρ c (Proc.devRef .tc main_arg5) = W0 m ρ c (Proc.devRef .tc main_arg5) from ((kept_hostOps1 (W6 m ρ c) main_arg5 (by decide)).trans ((W6_of_ne m ρ c main_arg5 (by decide)).trans ((kept_hostOps0_4 (W4 m ρ c) main_arg5 (by decide)).trans ((kept_hostOps0_3 (W3 m ρ c) main_arg5 (by decide)).trans ((kept_hostOps0_2 (W2 m ρ c) main_arg5 (by decide)).trans ((kept_hostOps0_1 (W1 m ρ c) main_arg5 (by decide)).trans (kept_hostOps0 (W0 m ρ c) main_arg5 (by decide)))))))))]
  rw [invs_col0, invs_col1, biasRow_row]
  rfl

theorem w9_v50 : (W9 m ρ c (Proc.devRef .tc main_v50) : FV S100000x128) = aggK (h2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6))) (W0 m ρ c (Proc.devRef .tc main_arg1)) (W0 m ρ c (Proc.devRef .tc main_arg2)) :=
  (s2_agg (W8 m ρ c)).trans (by rw [w8_v40, (show W8 m ρ c (Proc.devRef .tc main_arg1) = W0 m ρ c (Proc.devRef .tc main_arg1) from ((W8_of_ne m ρ c main_arg1 (by decide)).trans ((kept_hostOps1 (W6 m ρ c) main_arg1 (by decide)).trans ((W6_of_ne m ρ c main_arg1 (by decide)).trans ((kept_hostOps0_4 (W4 m ρ c) main_arg1 (by decide)).trans ((kept_hostOps0_3 (W3 m ρ c) main_arg1 (by decide)).trans ((kept_hostOps0_2 (W2 m ρ c) main_arg1 (by decide)).trans ((kept_hostOps0_1 (W1 m ρ c) main_arg1 (by decide)).trans (kept_hostOps0 (W0 m ρ c) main_arg1 (by decide)))))))))), (show W8 m ρ c (Proc.devRef .tc main_arg2) = W0 m ρ c (Proc.devRef .tc main_arg2) from ((W8_of_ne m ρ c main_arg2 (by decide)).trans ((kept_hostOps1 (W6 m ρ c) main_arg2 (by decide)).trans ((W6_of_ne m ρ c main_arg2 (by decide)).trans ((kept_hostOps0_4 (W4 m ρ c) main_arg2 (by decide)).trans ((kept_hostOps0_3 (W3 m ρ c) main_arg2 (by decide)).trans ((kept_hostOps0_2 (W2 m ρ c) main_arg2 (by decide)).trans ((kept_hostOps0_1 (W1 m ρ c) main_arg2 (by decide)).trans (kept_hostOps0 (W0 m ρ c) main_arg2 (by decide))))))))))])
theorem w9_v51 : (W9 m ρ c (Proc.devRef .tc main_v51) : FV S1x128) = biasRow (W0 m ρ c (Proc.devRef .tc main_arg8)) :=
  (s2_bias (W8 m ρ c)).trans (by rw [(show W8 m ρ c (Proc.devRef .tc main_arg8) = W0 m ρ c (Proc.devRef .tc main_arg8) from ((W8_of_ne m ρ c main_arg8 (by decide)).trans ((kept_hostOps1 (W6 m ρ c) main_arg8 (by decide)).trans ((W6_of_ne m ρ c main_arg8 (by decide)).trans ((kept_hostOps0_4 (W4 m ρ c) main_arg8 (by decide)).trans ((kept_hostOps0_3 (W3 m ρ c) main_arg8 (by decide)).trans ((kept_hostOps0_2 (W2 m ρ c) main_arg8 (by decide)).trans ((kept_hostOps0_1 (W1 m ρ c) main_arg8 (by decide)).trans (kept_hostOps0 (W0 m ρ c) main_arg8 (by decide))))))))))])

theorem w10_v52 : (W10 m ρ c (Proc.devRef .tc main_v52) : FV S100000x128) = h3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  refine (W10_arr m ρ c 4).trans ((Region2.array (V9 m ρ) c).trans ?_)
  show GCN.layerScaled (W9 m ρ c (Proc.devRef .tc main_v50)) (W9 m ρ c (Proc.devRef .tc main_arg7))
      (fun p => W9 m ρ c (Proc.devRef .tc main_v13) (ix2 p (0 : Fin 2))) (fun p => W9 m ρ c (Proc.devRef .tc main_v13) (ix2 p (1 : Fin 2)))
      (fun q => W9 m ρ c (Proc.devRef .tc main_v51) (ix2 (0 : Fin 1) q)) = _
  rw [w9_v50 m ρ c, w9_v13 m ρ c, w9_v51 m ρ c, (show W9 m ρ c (Proc.devRef .tc main_arg7) = W0 m ρ c (Proc.devRef .tc main_arg7) from ((kept_hostOps2 (W8 m ρ c) main_arg7 (by decide)).trans ((W8_of_ne m ρ c main_arg7 (by decide)).trans ((kept_hostOps1 (W6 m ρ c) main_arg7 (by decide)).trans ((W6_of_ne m ρ c main_arg7 (by decide)).trans ((kept_hostOps0_4 (W4 m ρ c) main_arg7 (by decide)).trans ((kept_hostOps0_3 (W3 m ρ c) main_arg7 (by decide)).trans ((kept_hostOps0_2 (W2 m ρ c) main_arg7 (by decide)).trans ((kept_hostOps0_1 (W1 m ρ c) main_arg7 (by decide)).trans (kept_hostOps0 (W0 m ρ c) main_arg7 (by decide)))))))))))]
  rw [invs_col0, invs_col1, biasRow_row]
  rfl

theorem w11_v62 : (W11 m ρ c (Proc.devRef .tc main_v62) : FV S100000x128) = aggK (h3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8))) (W0 m ρ c (Proc.devRef .tc main_arg1)) (W0 m ρ c (Proc.devRef .tc main_arg2)) :=
  (s3_agg (W10 m ρ c)).trans (by rw [w10_v52, (show W10 m ρ c (Proc.devRef .tc main_arg1) = W0 m ρ c (Proc.devRef .tc main_arg1) from ((W10_of_ne m ρ c main_arg1 (by decide)).trans ((kept_hostOps2 (W8 m ρ c) main_arg1 (by decide)).trans ((W8_of_ne m ρ c main_arg1 (by decide)).trans ((kept_hostOps1 (W6 m ρ c) main_arg1 (by decide)).trans ((W6_of_ne m ρ c main_arg1 (by decide)).trans ((kept_hostOps0_4 (W4 m ρ c) main_arg1 (by decide)).trans ((kept_hostOps0_3 (W3 m ρ c) main_arg1 (by decide)).trans ((kept_hostOps0_2 (W2 m ρ c) main_arg1 (by decide)).trans ((kept_hostOps0_1 (W1 m ρ c) main_arg1 (by decide)).trans (kept_hostOps0 (W0 m ρ c) main_arg1 (by decide)))))))))))), (show W10 m ρ c (Proc.devRef .tc main_arg2) = W0 m ρ c (Proc.devRef .tc main_arg2) from ((W10_of_ne m ρ c main_arg2 (by decide)).trans ((kept_hostOps2 (W8 m ρ c) main_arg2 (by decide)).trans ((W8_of_ne m ρ c main_arg2 (by decide)).trans ((kept_hostOps1 (W6 m ρ c) main_arg2 (by decide)).trans ((W6_of_ne m ρ c main_arg2 (by decide)).trans ((kept_hostOps0_4 (W4 m ρ c) main_arg2 (by decide)).trans ((kept_hostOps0_3 (W3 m ρ c) main_arg2 (by decide)).trans ((kept_hostOps0_2 (W2 m ρ c) main_arg2 (by decide)).trans ((kept_hostOps0_1 (W1 m ρ c) main_arg2 (by decide)).trans (kept_hostOps0 (W0 m ρ c) main_arg2 (by decide))))))))))))])
theorem w11_v63 : (W11 m ρ c (Proc.devRef .tc main_v63) : FV S100000x1) = factorCol (degInv (W0 m ρ c (Proc.devRef .tc main_arg2))) :=
  (s3_col (W10 m ρ c)).trans (by rw [w10_v10])
theorem w11_v64 : (W11 m ρ c (Proc.devRef .tc main_v64) : FV S1x128) = biasRow (W0 m ρ c (Proc.devRef .tc main_arg10)) :=
  (s3_bias (W10 m ρ c)).trans (by rw [(show W10 m ρ c (Proc.devRef .tc main_arg10) = W0 m ρ c (Proc.devRef .tc main_arg10) from ((W10_of_ne m ρ c main_arg10 (by decide)).trans ((kept_hostOps2 (W8 m ρ c) main_arg10 (by decide)).trans ((W8_of_ne m ρ c main_arg10 (by decide)).trans ((kept_hostOps1 (W6 m ρ c) main_arg10 (by decide)).trans ((W6_of_ne m ρ c main_arg10 (by decide)).trans ((kept_hostOps0_4 (W4 m ρ c) main_arg10 (by decide)).trans ((kept_hostOps0_3 (W3 m ρ c) main_arg10 (by decide)).trans ((kept_hostOps0_2 (W2 m ρ c) main_arg10 (by decide)).trans ((kept_hostOps0_1 (W1 m ρ c) main_arg10 (by decide)).trans (kept_hostOps0 (W0 m ρ c) main_arg10 (by decide))))))))))))])

theorem w12_v65 : (W12 m ρ c (Proc.devRef .tc main_v65) : FV S160x128) = pooled (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  refine (W12_arr m ρ c 4).trans ((Region3.array (V11 m ρ) c).trans ?_)
  show GCN.pooledBlocks (W11 m ρ c (Proc.devRef .tc main_v62)) (W11 m ρ c (Proc.devRef .tc main_arg9))
      (fun p => W11 m ρ c (Proc.devRef .tc main_v63) (ix2 p (0 : Fin 1))) (fun q => W11 m ρ c (Proc.devRef .tc main_v64) (ix2 (0 : Fin 1) q)) = _
  rw [w11_v62 m ρ c, w11_v63 m ρ c, w11_v64 m ρ c, (show W11 m ρ c (Proc.devRef .tc main_arg9) = W0 m ρ c (Proc.devRef .tc main_arg9) from ((kept_hostOps3 (W10 m ρ c) main_arg9 (by decide)).trans ((W10_of_ne m ρ c main_arg9 (by decide)).trans ((kept_hostOps2 (W8 m ρ c) main_arg9 (by decide)).trans ((W8_of_ne m ρ c main_arg9 (by decide)).trans ((kept_hostOps1 (W6 m ρ c) main_arg9 (by decide)).trans ((W6_of_ne m ρ c main_arg9 (by decide)).trans ((kept_hostOps0_4 (W4 m ρ c) main_arg9 (by decide)).trans ((kept_hostOps0_3 (W3 m ρ c) main_arg9 (by decide)).trans ((kept_hostOps0_2 (W2 m ρ c) main_arg9 (by decide)).trans ((kept_hostOps0_1 (W1 m ρ c) main_arg9 (by decide)).trans (kept_hostOps0 (W0 m ρ c) main_arg9 (by decide)))))))))))))]
  rw [factorCol_col, biasRow_row]
  rfl

/-! ## After the last launch -/

theorem w13_v72 : (W13 m ρ c (Proc.devRef .tc main_v72) : FV S1x128) = head1 (pooled (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10))) (W0 m ρ c (Proc.devRef .tc main_arg11)) (W0 m ρ c (Proc.devRef .tc main_arg12)) :=
  (s4_v72 (W12 m ρ c)).trans (by rw [w12_v65, (show W12 m ρ c (Proc.devRef .tc main_arg11) = W0 m ρ c (Proc.devRef .tc main_arg11) from ((W12_of_ne m ρ c main_arg11 (by decide)).trans ((kept_hostOps3 (W10 m ρ c) main_arg11 (by decide)).trans ((W10_of_ne m ρ c main_arg11 (by decide)).trans ((kept_hostOps2 (W8 m ρ c) main_arg11 (by decide)).trans ((W8_of_ne m ρ c main_arg11 (by decide)).trans ((kept_hostOps1 (W6 m ρ c) main_arg11 (by decide)).trans ((W6_of_ne m ρ c main_arg11 (by decide)).trans ((kept_hostOps0_4 (W4 m ρ c) main_arg11 (by decide)).trans ((kept_hostOps0_3 (W3 m ρ c) main_arg11 (by decide)).trans ((kept_hostOps0_2 (W2 m ρ c) main_arg11 (by decide)).trans ((kept_hostOps0_1 (W1 m ρ c) main_arg11 (by decide)).trans (kept_hostOps0 (W0 m ρ c) main_arg11 (by decide)))))))))))))), (show W12 m ρ c (Proc.devRef .tc main_arg12) = W0 m ρ c (Proc.devRef .tc main_arg12) from ((W12_of_ne m ρ c main_arg12 (by decide)).trans ((kept_hostOps3 (W10 m ρ c) main_arg12 (by decide)).trans ((W10_of_ne m ρ c main_arg12 (by decide)).trans ((kept_hostOps2 (W8 m ρ c) main_arg12 (by decide)).trans ((W8_of_ne m ρ c main_arg12 (by decide)).trans ((kept_hostOps1 (W6 m ρ c) main_arg12 (by decide)).trans ((W6_of_ne m ρ c main_arg12 (by decide)).trans ((kept_hostOps0_4 (W4 m ρ c) main_arg12 (by decide)).trans ((kept_hostOps0_3 (W3 m ρ c) main_arg12 (by decide)).trans ((kept_hostOps0_2 (W2 m ρ c) main_arg12 (by decide)).trans ((kept_hostOps0_1 (W1 m ρ c) main_arg12 (by decide)).trans (kept_hostOps0 (W0 m ρ c) main_arg12 (by decide))))))))))))))])
theorem w14_v73 : (W14 m ρ c (Proc.devRef .tc main_v73) : FV S1x128) = relu1 (head1 (pooled (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10))) (W0 m ρ c (Proc.devRef .tc main_arg11)) (W0 m ρ c (Proc.devRef .tc main_arg12))) :=
  (s41_v73 (W13 m ρ c)).trans (by rw [w13_v72])
theorem w15_v76 : (W15 m ρ c (Proc.devRef .tc main_v76) : FV S1x128)
    = dense1 (relu1 (head1 (pooled (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10))) (W0 m ρ c (Proc.devRef .tc main_arg11)) (W0 m ρ c (Proc.devRef .tc main_arg12)))) (W0 m ρ c (Proc.devRef .tc main_arg13)) (W0 m ρ c (Proc.devRef .tc main_arg14)) :=
  (s42_v76 (W14 m ρ c)).trans (by rw [w14_v73, (show W14 m ρ c (Proc.devRef .tc main_arg13) = W0 m ρ c (Proc.devRef .tc main_arg13) from ((kept_hostOps4_1 (W13 m ρ c) main_arg13 (by decide)).trans ((kept_hostOps4 (W12 m ρ c) main_arg13 (by decide)).trans ((W12_of_ne m ρ c main_arg13 (by decide)).trans ((kept_hostOps3 (W10 m ρ c) main_arg13 (by decide)).trans ((W10_of_ne m ρ c main_arg13 (by decide)).trans ((kept_hostOps2 (W8 m ρ c) main_arg13 (by decide)).trans ((W8_of_ne m ρ c main_arg13 (by decide)).trans ((kept_hostOps1 (W6 m ρ c) main_arg13 (by decide)).trans ((W6_of_ne m ρ c main_arg13 (by decide)).trans ((kept_hostOps0_4 (W4 m ρ c) main_arg13 (by decide)).trans ((kept_hostOps0_3 (W3 m ρ c) main_arg13 (by decide)).trans ((kept_hostOps0_2 (W2 m ρ c) main_arg13 (by decide)).trans ((kept_hostOps0_1 (W1 m ρ c) main_arg13 (by decide)).trans (kept_hostOps0 (W0 m ρ c) main_arg13 (by decide)))))))))))))))), (show W14 m ρ c (Proc.devRef .tc main_arg14) = W0 m ρ c (Proc.devRef .tc main_arg14) from ((kept_hostOps4_1 (W13 m ρ c) main_arg14 (by decide)).trans ((kept_hostOps4 (W12 m ρ c) main_arg14 (by decide)).trans ((W12_of_ne m ρ c main_arg14 (by decide)).trans ((kept_hostOps3 (W10 m ρ c) main_arg14 (by decide)).trans ((W10_of_ne m ρ c main_arg14 (by decide)).trans ((kept_hostOps2 (W8 m ρ c) main_arg14 (by decide)).trans ((W8_of_ne m ρ c main_arg14 (by decide)).trans ((kept_hostOps1 (W6 m ρ c) main_arg14 (by decide)).trans ((W6_of_ne m ρ c main_arg14 (by decide)).trans ((kept_hostOps0_4 (W4 m ρ c) main_arg14 (by decide)).trans ((kept_hostOps0_3 (W3 m ρ c) main_arg14 (by decide)).trans ((kept_hostOps0_2 (W2 m ρ c) main_arg14 (by decide)).trans ((kept_hostOps0_1 (W1 m ρ c) main_arg14 (by decide)).trans (kept_hostOps0 (W0 m ρ c) main_arg14 (by decide))))))))))))))))])
theorem w16_v77 : (W16 m ρ c (Proc.devRef .tc main_v77) : FV S1x128)
    = relu1 (dense1 (relu1 (head1 (pooled (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10))) (W0 m ρ c (Proc.devRef .tc main_arg11)) (W0 m ρ c (Proc.devRef .tc main_arg12)))) (W0 m ρ c (Proc.devRef .tc main_arg13)) (W0 m ρ c (Proc.devRef .tc main_arg14))) :=
  (s43_v77 (W15 m ρ c)).trans (by rw [w15_v76])

/-- The result buffer at the end of the run: the closed form of the arguments as launched. -/
theorem value : (W17 m ρ c (Proc.devRef .tc main_v80) : FV S1x1) = result (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) :=
  (s44_v80 (W16 m ρ c)).trans (by
    rw [w16_v77, (show W16 m ρ c (Proc.devRef .tc main_arg15) = W0 m ρ c (Proc.devRef .tc main_arg15) from ((kept_hostOps4_3 (W15 m ρ c) main_arg15 (by decide)).trans ((kept_hostOps4_2 (W14 m ρ c) main_arg15 (by decide)).trans ((kept_hostOps4_1 (W13 m ρ c) main_arg15 (by decide)).trans ((kept_hostOps4 (W12 m ρ c) main_arg15 (by decide)).trans ((W12_of_ne m ρ c main_arg15 (by decide)).trans ((kept_hostOps3 (W10 m ρ c) main_arg15 (by decide)).trans ((W10_of_ne m ρ c main_arg15 (by decide)).trans ((kept_hostOps2 (W8 m ρ c) main_arg15 (by decide)).trans ((W8_of_ne m ρ c main_arg15 (by decide)).trans ((kept_hostOps1 (W6 m ρ c) main_arg15 (by decide)).trans ((W6_of_ne m ρ c main_arg15 (by decide)).trans ((kept_hostOps0_4 (W4 m ρ c) main_arg15 (by decide)).trans ((kept_hostOps0_3 (W3 m ρ c) main_arg15 (by decide)).trans ((kept_hostOps0_2 (W2 m ρ c) main_arg15 (by decide)).trans ((kept_hostOps0_1 (W1 m ρ c) main_arg15 (by decide)).trans (kept_hostOps0 (W0 m ρ c) main_arg15 (by decide)))))))))))))))))), (show W16 m ρ c (Proc.devRef .tc main_arg16) = W0 m ρ c (Proc.devRef .tc main_arg16) from ((kept_hostOps4_3 (W15 m ρ c) main_arg16 (by decide)).trans ((kept_hostOps4_2 (W14 m ρ c) main_arg16 (by decide)).trans ((kept_hostOps4_1 (W13 m ρ c) main_arg16 (by decide)).trans ((kept_hostOps4 (W12 m ρ c) main_arg16 (by decide)).trans ((W12_of_ne m ρ c main_arg16 (by decide)).trans ((kept_hostOps3 (W10 m ρ c) main_arg16 (by decide)).trans ((W10_of_ne m ρ c main_arg16 (by decide)).trans ((kept_hostOps2 (W8 m ρ c) main_arg16 (by decide)).trans ((W8_of_ne m ρ c main_arg16 (by decide)).trans ((kept_hostOps1 (W6 m ρ c) main_arg16 (by decide)).trans ((W6_of_ne m ρ c main_arg16 (by decide)).trans ((kept_hostOps0_4 (W4 m ρ c) main_arg16 (by decide)).trans ((kept_hostOps0_3 (W3 m ρ c) main_arg16 (by decide)).trans ((kept_hostOps0_2 (W2 m ρ c) main_arg16 (by decide)).trans ((kept_hostOps0_1 (W1 m ρ c) main_arg16 (by decide)).trans (kept_hostOps0 (W0 m ρ c) main_arg16 (by decide))))))))))))))))))]
    unfold result
    rw [tailK_eq])

end Cert.KernelIdeal.Levels

end
-- ==== Proof.RefLayers.lean ====
/-
  The reference's layer, read index by index.

  In the reference one graph-convolution layer is a chain of host operations on whole arrays: the matrix product of the
  aggregated features with the weights, a product with the in-degree factors broadcast along the rows, the bias broadcast
  along the columns and added, a maximum with the zero array, and — before the next aggregation — a product with the
  out-degree factors broadcast along the rows. At the extended reals the matrix product at (p, q) is the sum over k of
  `agg (p, k) · W (k, q)`, each broadcast reads its operand at the coordinate it keeps, and the elementwise operations
  act entry by entry; so the chain is the function `GCN.dense` (without the last product) or `GCN.layerScaled` (with it).
-/
import proofs.«122499_j17145509445914_2_alg».proof.Proof.Gen.ReferenceIdeal.Run
import proofs.«122499_j17145509445914_2_alg».proof.Proof.Gen.ReferenceIdeal.Read
import proofs.«122499_j17145509445914_2_alg».proof.Proof.Spec

noncomputable section

open scoped BigOperators

namespace Cert.ReferenceIdeal.RefValue

open Cert.ReferenceIdeal Cert.ReferenceIdeal.Gen Idealize.ShloMosaic Idealize.ShloMosaic.ValueIdx

/-- A vector of 100000 row factors, made a column and broadcast along the rows, reads at (p, q) the factor of row p. -/
theorem bcast_rows_apply {α : Type} (x : S100000.Idx → α) (p : Fin 100000) (q : Fin 128) :
    broadcastInDim S100000x128 ![0, 1] bcast_S100000x1_S100000x128_0_1
      (broadcastInDim S100000x1 ![0] bcast_S100000_S100000x1_0 x) (ix2 p q) = x (ix1 p) := by
  refine (broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 x (ix2 p (0 : Fin 1)) (ix1 p) (fun a => match a with
    | ⟨0, _⟩ => by show p.val = if (100000 : Nat) = 1 then 0 else p.val; rw [if_neg (by decide)])

/-- A vector of 128 column entries, made a row and broadcast along the columns, reads at (p, q) the entry of column q. -/
theorem bcast_cols_apply {α : Type} (b : S128.Idx → α) (p : Fin 100000) (q : Fin 128) :
    broadcastInDim S100000x128 ![0, 1] bcast_S1x128_S100000x128_0_1
      (broadcastInDim S1x128 ![1] bcast_S128_S1x128_1 b) (ix2 p q) = b (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- A scalar broadcast to the whole array reads the scalar everywhere. -/
theorem bcast_scalar_apply {α : Type} (x : S_.Idx → α) (y : S100000x128.Idx) :
    broadcastInDim S100000x128 ![] bcast_S_S100000x128 x y = x ix0 :=
  broadcastInDim_apply _ bcast_S_S100000x128 x y ix0 (fun a => a.elim0)

/-- The host's matrix product at the extended reals, entry (p, q): the sum over the contracted coordinate. -/
theorem dot_apply (agg : FVec Ideal S100000x128 .f32) (W : FVec Ideal S128x128 .f32) (p : Fin 100000) (q : Fin 128) :
    Host.dotGeneral dot_S100000x128_S128x128_S100000x128_1_0_0_1_n_n none agg W (ix2 p q) = ∑ k : Fin 128, agg (ix2 p k) * W (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Read.lhs_main_v24_0 _ _
    | ⟨1, _⟩ => exact (Read.lhs_main_v24_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Read.rhs_main_v24_0 _ _).trans hk
    | ⟨1, _⟩ => exact Read.rhs_main_v24_1 _ _)
  rw [el, er]

/-- The reference's layer up to the clip at zero is `GCN.dense`. -/
theorem dense_eq (agg : FVec Ideal S100000x128 .f32) (W : FVec Ideal S128x128 .f32) (isi : FVec Ideal S100000 .f32)
    (b : FVec Ideal S128 .f32) :
    maximumf (addf (mulf (Host.dotGeneral dot_S100000x128_S128x128_S100000x128_1_0_0_1_n_n none agg W)
          (broadcastInDim S100000x128 ![0, 1] bcast_S100000x1_S100000x128_0_1 (broadcastInDim S100000x1 ![0] bcast_S100000_S100000x1_0 isi)))
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = (GCN.dense agg W (fun p => isi (ix1 p)) (fun q => b (ix1 q)) : FVec Ideal S100000x128 .f32) := by
  funext y
  obtain ⟨p, q, rfl⟩ : ∃ (p : Fin 100000) (q : Fin 128), y = ix2 p q := ⟨y 0, y 1, eq_ix2 y⟩
  rw [GCN.dense_ix2, maximumf_apply, addf_apply, mulf_apply, dot_apply, bcast_rows_apply, bcast_cols_apply,
    bcast_scalar_apply]
  rfl

/-- The reference's layer followed by the out-degree scaling is `GCN.layerScaled`. -/
theorem layerScaled_eq (agg : FVec Ideal S100000x128 .f32) (W : FVec Ideal S128x128 .f32) (isi iso : FVec Ideal S100000 .f32)
    (b : FVec Ideal S128 .f32) :
    mulf (maximumf (addf (mulf (Host.dotGeneral dot_S100000x128_S128x128_S100000x128_1_0_0_1_n_n none agg W)
          (broadcastInDim S100000x128 ![0, 1] bcast_S100000x1_S100000x128_0_1 (broadcastInDim S100000x1 ![0] bcast_S100000_S100000x1_0 isi)))
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)))
      (broadcastInDim S100000x128 ![0, 1] bcast_S100000x1_S100000x128_0_1 (broadcastInDim S100000x1 ![0] bcast_S100000_S100000x1_0 iso))
    = (GCN.layerScaled agg W (fun p => isi (ix1 p)) (fun p => iso (ix1 p)) (fun q => b (ix1 q)) : FVec Ideal S100000x128 .f32) := by
  rw [dense_eq]
  funext y
  obtain ⟨p, q, rfl⟩ : ∃ (p : Fin 100000) (q : Fin 128), y = ix2 p q := ⟨y 0, y 1, eq_ix2 y⟩
  rw [GCN.layerScaled_ix2, mulf_apply, GCN.dense_ix2, bcast_rows_apply]

end Cert.ReferenceIdeal.RefValue

end
-- ==== Proof.PoolSum.lean ====
/-
  The host's sum over the rows of the blockwise column sums is its sum over the rows of the whole layer.

  At the extended reals the host's `reduce add` along axis 0, read at column q, is the initial value plus the sum of the
  column's entries. For the [160, 128] array of blockwise sums that is the initial value plus the 160 row entries, which
  add up to the sum of the layer's column over all 100000 nodes (`sum_pooledBlocks`).
-/
import Idealize.ShloMosaic.PureOps.Ideal.Laws
import Idealize.ShloMosaic.PureOps.Contract
import proofs.«122499_j17145509445914_2_alg».proof.Proof.Spec

noncomputable section

open scoped BigOperators

namespace Cert.GCN

open Idealize.ShloMosaic Idealize.ShloMosaic.ValueIdx

theorem reduceAdd_pooledBlocks (agg : (⟨2, ![100000, 128]⟩ : Shape).Idx → EReal) (W : (⟨2, ![128, 128]⟩ : Shape).Idx → EReal)
    (sIn : Fin 100000 → EReal) (b : Fin 128 → EReal) (init : (⟨0, ![]⟩ : Shape).Idx → EReal)
    (h160 : (⟨2, ![160, 128]⟩ : Shape).ReducesTo [0] ⟨1, ![128]⟩)
    (hN : (⟨2, ![100000, 128]⟩ : Shape).ReducesTo [0] ⟨1, ![128]⟩) (hu : 0 < (⟨0, ![]⟩ : Shape).numel) :
    Host.reduceAdd (F := Ideal) (φ := .f32) (pooledBlocks agg W sIn b) init h160 hu
      = Host.reduceAdd (F := Ideal) (φ := .f32) (dense agg W sIn b) init hN hu := by
  funext j
  obtain ⟨q, rfl⟩ : ∃ q : Fin 128, j = ix1 q := ⟨j 0, eq_ix1 j⟩
  simp only [Host.reduceAdd, Ideal.hostReduceAdd_def]
  rw [Ideal.hostReduceAdd_single h160 (by decide), Ideal.hostReduceAdd_single hN (by decide)]
  refine congrArg (_ + ·) ?_
  have e1 : ∀ k : Fin 160, pooledBlocks agg W sIn b
      ((by decide : (⟨2, ![160, 128]⟩ : Shape).Reduces [0] ⟨1, ![128]⟩).lift (ix1 q) k) = pooledAt agg W sIn b k q := fun k =>
    (congrArg (pooledBlocks agg W sIn b) (funext fun a => Fin.ext (by
      match a with | ⟨0, _⟩ => rfl | ⟨1, _⟩ => rfl))).trans (pooledBlocks_ix2 agg W sIn b k q)
  have e2 : ∀ p : Fin 100000, dense agg W sIn b
      ((by decide : (⟨2, ![100000, 128]⟩ : Shape).Reduces [0] ⟨1, ![128]⟩).lift (ix1 q) p) = denseAt agg W sIn b p q := fun p =>
    (congrArg (dense agg W sIn b) (funext fun a => Fin.ext (by
      match a with | ⟨0, _⟩ => rfl | ⟨1, _⟩ => rfl))).trans (dense_ix2 agg W sIn b p q)
  show (∑ k : Fin 160, _) = ∑ p : Fin 100000, _
  rw [Finset.sum_congr rfl fun k _ => e1 k, Finset.sum_congr rfl fun p _ => e2 p]
  exact sum_pooledBlocks agg W sIn b q

end Cert.GCN

end
-- ==== Proof.Bridge.lean ====
/-
  The kernel's closed form is the reference's term.

  Stage by stage the two programs apply the same operations: the degree factors, the pre-scaled first aggregation, then
  for each of the first three layers the scaled dense layer (the reference's chain of whole-array operations is the same
  index-by-index function, `layerScaled_eq`) followed by the same aggregation; for the last layer the reference sums the
  dense layer over all nodes where the kernel sums its blockwise column sums — equal by `reduceAdd_pooledBlocks` —; and
  the same closing head.
-/
import proofs.«122499_j17145509445914_2_alg».proof.Proof.KernelValue
import proofs.«122499_j17145509445914_2_alg».proof.Proof.RefLayers
import proofs.«122499_j17145509445914_2_alg».proof.Proof.PoolSum

set_option maxRecDepth 16384

noncomputable section

namespace Cert.Bridge

open Cert.KernelIdeal Cert.KernelIdeal.Gen Cert.KernelIdeal.Host Cert.KernelIdeal.Value Idealize.ShloMosaic Idealize.ShloMosaic.ValueIdx
open Cert.ReferenceIdeal.Read

variable (x0 : FV S100000x128) (x1 x2 : IV S1600000) (x3 : FV S128x128) (x4 : FV S128) (x5 : FV S128x128) (x6 : FV S128)
    (x7 : FV S128x128) (x8 : FV S128) (x9 : FV S128x128) (x10 : FV S128) (x11 : FV S128x128) (x12 : FV S128)
    (x13 : FV S128x128) (x14 : FV S128) (x15 : FV S128x1) (x16 : FV S1)

theorem iso_eq : degInv x1 = val_main_v8 (F := Ideal) x1 := rfl
theorem isi_eq : degInv x2 = val_main_v10 (F := Ideal) x2 := rfl

theorem agg1_eq : agg1 x0 x1 x2 = val_main_v23 (F := Ideal) x0 x1 x2 := by
  unfold agg1
  rw [iso_eq]
  rfl

theorem h1_eq : h1 x0 x1 x2 x3 x4 = val_main_v34 (F := Ideal) x0 x1 x2 x3 x4 := by
  unfold h1 layer
  rw [agg1_eq, iso_eq, isi_eq]
  exact (Cert.ReferenceIdeal.RefValue.layerScaled_eq (val_main_v23 (F := Ideal) x0 x1 x2) x3 (val_main_v10 (F := Ideal) x2) (val_main_v8 (F := Ideal) x1) x4).symm

theorem agg2_eq : aggK (val_main_v34 (F := Ideal) x0 x1 x2 x3 x4) x1 x2 = val_main_v44 (F := Ideal) x0 x1 x2 x3 x4 := rfl

theorem h2_eq : h2 x0 x1 x2 x3 x4 x5 x6 = val_main_v55 (F := Ideal) x0 x1 x2 x3 x4 x5 x6 := by
  unfold h2 layer
  rw [h1_eq, agg2_eq, iso_eq, isi_eq]
  exact (Cert.ReferenceIdeal.RefValue.layerScaled_eq (val_main_v44 (F := Ideal) x0 x1 x2 x3 x4) x5 (val_main_v10 (F := Ideal) x2) (val_main_v8 (F := Ideal) x1) x6).symm

theorem agg3_eq : aggK (val_main_v55 (F := Ideal) x0 x1 x2 x3 x4 x5 x6) x1 x2 = val_main_v65 (F := Ideal) x0 x1 x2 x3 x4 x5 x6 := rfl

theorem h3_eq : h3 x0 x1 x2 x3 x4 x5 x6 x7 x8 = val_main_v76 (F := Ideal) x0 x1 x2 x3 x4 x5 x6 x7 x8 := by
  unfold h3 layer
  rw [h2_eq, agg3_eq, iso_eq, isi_eq]
  exact (Cert.ReferenceIdeal.RefValue.layerScaled_eq (val_main_v65 (F := Ideal) x0 x1 x2 x3 x4 x5 x6) x7 (val_main_v10 (F := Ideal) x2) (val_main_v8 (F := Ideal) x1) x8).symm

theorem agg4_eq : aggK (val_main_v76 (F := Ideal) x0 x1 x2 x3 x4 x5 x6 x7 x8) x1 x2 = val_main_v86 (F := Ideal) x0 x1 x2 x3 x4 x5 x6 x7 x8 := rfl

/-- The reference's fourth dense layer, before the sum over the nodes. -/
theorem dense4_eq : (GCN.dense (val_main_v86 (F := Ideal) x0 x1 x2 x3 x4 x5 x6 x7 x8) x9 (fun p => val_main_v10 (F := Ideal) x2 (ix1 p))
      (fun q => x10 (ix1 q)) : FV S100000x128) = val_main_v94 (F := Ideal) x0 x1 x2 x3 x4 x5 x6 x7 x8 x9 x10 :=
  (Cert.ReferenceIdeal.RefValue.dense_eq (val_main_v86 (F := Ideal) x0 x1 x2 x3 x4 x5 x6 x7 x8) x9 (val_main_v10 (F := Ideal) x2) x10).symm

/-- The reference's result from its sum over the nodes: the same closing head. -/
theorem head_eq : headFrom (val_main_v95 (F := Ideal) x0 x1 x2 x3 x4 x5 x6 x7 x8 x9 x10) x11 x12 x13 x14 x15 x16
    = val_main_v109 (F := Ideal) x0 x1 x2 x3 x4 x5 x6 x7 x8 x9 x10 x11 x12 x13 x14 x15 x16 := rfl

/-- The kernel's closed form is the reference's term. -/
theorem result_eq : result x0 x1 x2 x3 x4 x5 x6 x7 x8 x9 x10 x11 x12 x13 x14 x15 x16
    = val_main_v109 (F := Ideal) x0 x1 x2 x3 x4 x5 x6 x7 x8 x9 x10 x11 x12 x13 x14 x15 x16 := by
  unfold result tailK pooled
  rw [h3_eq, agg4_eq, isi_eq]
  refine (congrArg (fun s => headFrom s x11 x12 x13 x14 x15 x16)
    (GCN.reduceAdd_pooledBlocks (val_main_v86 (F := Ideal) x0 x1 x2 x3 x4 x5 x6 x7 x8) x9
      (fun p => val_main_v10 (F := Ideal) x2 (ix1 p)) (fun q => x10 (ix1 q))
      (constant (F := Ideal) S_ .f32 0x00000000#32) reducesTo_S160x128_S128_d0
      Cert.ReferenceIdeal.Gen.reducesTo_S100000x128_S128_d0 h_S_)).trans ?_
  rw [dense4_eq]
  exact head_eq x0 x1 x2 x3 x4 x5 x6 x7 x8 x9 x10 x11 x12 x13 x14 x15 x16

end Cert.Bridge

end
-- ==== Proof.lean ====
/-
  The kernel and the reference compute the same network.

  The program is a four-layer graph convolution with a pooled dense head: node features are scaled by out-degree factors,
  summed over incoming edges, multiplied by a weight matrix, scaled by in-degree factors, shifted by a bias and clipped at
  zero, four times; the mean over the nodes then goes through three small dense layers. The kernel runs each layer's
  dense part in a pipelined launch over blocks of 5000 nodes — folding the next layer's out-degree scaling into the first
  three, and in the fourth replacing the layer's output by per-block column sums that the host adds up — while the
  reference applies whole-array operations. Over the extended reals every operation is exact, a matrix product is a plain
  sum, and sums may be regrouped, so both programs end with the same [1, 1] result: the kernel's run is read boundary by
  boundary to a closed form of the arguments (`Levels.value`), and that closed form is the reference's term
  (`Bridge.result_eq`). Nothing in the argument needs the inputs to be finite. Each program's run also terminates without
  a fault and leaves the arguments unchanged.
-/
import proofs.«122499_j17145509445914_2_alg».proof.Defs
import proofs.«122499_j17145509445914_2_alg».proof.Proof.Gen.Kernel
import proofs.«122499_j17145509445914_2_alg».proof.Proof.Gen.Kernel.Frame
import proofs.«122499_j17145509445914_2_alg».proof.Proof.Gen.KernelIdeal
import proofs.«122499_j17145509445914_2_alg».proof.Proof.Gen.KernelIdeal.Frame
import proofs.«122499_j17145509445914_2_alg».proof.Proof.Gen.ReferenceIdeal
import proofs.«122499_j17145509445914_2_alg».proof.Proof.Gen.ReferenceIdeal.Run
import proofs.«122499_j17145509445914_2_alg».proof.Proof.Gen.ReferenceIdeal.Read
import proofs.«122499_j17145509445914_2_alg».proof.Proof.Gen.Pre_finite_inputs
import proofs.«122499_j17145509445914_2_alg».proof.Proof.KernelRun
import proofs.«122499_j17145509445914_2_alg».proof.Proof.KernelLevels
import proofs.«122499_j17145509445914_2_alg».proof.Proof.Bridge
import Idealize.ShloMosaic.Adequacy
import Idealize.ShloMosaic.Init

set_option maxRecDepth 16384

noncomputable section

namespace Cert.Proof

open Idealize.ShloMosaic Idealize.SL.Sem

/-- The word-level kernel runs to the end and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the kernel's result buffer
    holds the closed form of the arguments, which is the reference's term of the same arguments. -/
theorem algebraic : Cert.algebraic_KernelIdeal_ReferenceIdeal := by
  intro m ρ m' ρ' _ hagree
  refine ⟨fun c => Cert.KernelIdeal.Gen.W17 m ρ c (Proc.devRef .tc Cert.KernelIdeal.main_v80),
    Cert.KernelIdeal.RunValue.run_result m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  rw [Cert.ReferenceIdeal.Read.val_main_v109_eq, e0, e1, e2, e3, e4, e5, e6, e7, e8, e9, e10, e11, e12, e13, e14, e15, e16]
  exact ((Cert.KernelIdeal.Levels.value m ρ c).trans (Cert.Bridge.result_eq _ _ _ _ _ _ _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
